-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v32)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v32) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S500000 : Shape := ⟨1, ![500000]⟩
abbrev S100000x128 : Shape := ⟨2, ![100000, 128]⟩
abbrev S128x128 : Shape := ⟨2, ![128, 128]⟩
abbrev S128 : Shape := ⟨1, ![128]⟩
abbrev S1600000 : Shape := ⟨1, ![1600000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S1600000 : S_.BroadcastsInDim S1600000 (![] : Fin 0 → Fin S1600000.rank)
  reducesTo_S1600000_S_d0 : S1600000.ReducesTo [0] S_

variable [Facts]

def fn_part1 {F : FTy → Type} [FloatOps F] (main_arg7 : FVec F S128 .f32) (main_arg8 : FVec F S128 .f32) (main_v13 : IVec S_ 1) (main_v16 : IVec S1600000 1) : IVec S_ 1 :=
  let main_c_5 : IVec S_ 1 := constantI S_ 1 1#1
  let main_v17 : IVec S_ 1 := (fun x v => Host.reduce IntOp.andi x v reducesTo_S1600000_S_d0 h_S_) main_v16 main_c_5
  let main_v18 : IVec S_ 1 := andi main_v13 main_v17
  let main_v19 : FVec F S128 .f32 := Host.absf main_arg7
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128 .f32 := Host.absf main_arg8
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  main_v28

def fn {F : FTy → Type} [FloatOps F] (main_arg0 : IVec S500000 32) (main_arg1 : FVec F S100000x128 .f32) (main_arg2 : FVec F S128x128 .f32) (main_arg3 : FVec F S128 .f32) (main_arg4 : FVec F S1600000 .f32) (main_arg5 : IVec S1600000 32) (main_arg6 : IVec S1600000 32) (main_arg7 : FVec F S128 .f32) (main_arg8 : FVec F S128 .f32) : IVec S_ 1 :=
  let main_v0 : FVec F S100000x128 .f32 := Host.absf main_arg1
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S1600000 .f32 := Host.absf main_arg4
  let main_cst_4 : FVec F S_ .f32 := constant S_ .f32 0x7F800000#32
  let main_v15 : FVec F S1600000 .f32 := broadcastInDim S1600000 ![] bcast_S_S1600000 main_cst_4
  let main_v16 : IVec S1600000 1 := cmpf .olt main_v14 main_v15
  fn_part1 (F := F) main_arg7 main_arg8 main_v13 main_v16
-- ==== Kernel.lean ====
abbrev S500000 : Shape := ⟨1, ![500000]⟩
abbrev S100000x128 : Shape := ⟨2, ![100000, 128]⟩
abbrev S128x128 : Shape := ⟨2, ![128, 128]⟩
abbrev S128 : Shape := ⟨1, ![128]⟩
abbrev S1600000 : Shape := ⟨1, ![1600000]⟩
abbrev S10000x128 : Shape := ⟨2, ![10000, 128]⟩
abbrev S1x128 : Shape := ⟨2, ![1, 128]⟩
abbrev S_ : Shape := ⟨0, ![]⟩
abbrev S1600000x1 : Shape := ⟨2, ![1600000, 1]⟩
abbrev S1600000x128 : Shape := ⟨2, ![1600000, 128]⟩
abbrev S4000x128 : Shape := ⟨2, ![4000, 128]⟩
abbrev S4000 : Shape := ⟨1, ![4000]⟩
abbrev S4000x1 : Shape := ⟨2, ![4000, 1]⟩
abbrev S500000x1 : Shape := ⟨2, ![500000, 1]⟩
abbrev S500000x128 : Shape := ⟨2, ![500000, 128]⟩

abbrev nBuf : Space → Nat
  | .hbm => 61
  | .vmem => 12
  | .smem => 0
  | _ => 0

abbrev bufTy : (tb : Table) → Fin (tcTables nBuf tb) → BufTy
  | .hbm, ⟨0, _⟩ => ⟨S500000, .i32⟩
  | .hbm, ⟨1, _⟩ => ⟨S100000x128, .f32⟩
  | .hbm, ⟨2, _⟩ => ⟨S128x128, .f32⟩
  | .hbm, ⟨3, _⟩ => ⟨S128, .f32⟩
  | .hbm, ⟨4, _⟩ => ⟨S1600000, .f32⟩
  | .hbm, ⟨5, _⟩ => ⟨S1600000, .i32⟩
  | .hbm, ⟨6, _⟩ => ⟨S1600000, .i32⟩
  | .hbm, ⟨7, _⟩ => ⟨S128, .f32⟩
  | .hbm, ⟨8, _⟩ => ⟨S128, .f32⟩
  | .hbm, ⟨9, _⟩ => ⟨S100000x128, .bf16⟩
  | .hbm, ⟨10, _⟩ => ⟨S_, .i32⟩
  | .hbm, ⟨11, _⟩ => ⟨S1600000, .i32⟩
  | .hbm, ⟨12, _⟩ => ⟨S1600000, .i1⟩
  | .hbm, ⟨13, _⟩ => ⟨S_, .i32⟩
  | .hbm, ⟨14, _⟩ => ⟨S1600000, .i32⟩
  | .hbm, ⟨15, _⟩ => ⟨S1600000, .i32⟩
  | .hbm, ⟨16, _⟩ => ⟨S1600000, .i32⟩
  | .hbm, ⟨17, _⟩ => ⟨S1600000x1, .i32⟩
  | .hbm, ⟨18, _⟩ => ⟨S1600000x128, .bf16⟩
  | .hbm, ⟨19, _⟩ => ⟨S1600000x128, .f32⟩
  | .hbm, ⟨20, _⟩ => ⟨S1600000x1, .f32⟩
  | .hbm, ⟨21, _⟩ => ⟨S1600000x128, .f32⟩
  | .hbm, ⟨22, _⟩ => ⟨S1600000x128, .f32⟩
  | .hbm, ⟨23, _⟩ => ⟨S_, .f32⟩
  | .hbm, ⟨24, _⟩ => ⟨S100000x128, .f32⟩
  | .hbm, ⟨25, _⟩ => ⟨S1600000x1, .i32⟩
  | .hbm, ⟨26, _⟩ => ⟨S100000x128, .f32⟩
  | .hbm, ⟨27, _⟩ => ⟨S100000x128, .f32⟩
  | .hbm, ⟨28, _⟩ => ⟨S_, .i32⟩
  | .hbm, ⟨29, _⟩ => ⟨S500000, .i32⟩
  | .hbm, ⟨30, _⟩ => ⟨S500000, .i1⟩
  | .hbm, ⟨31, _⟩ => ⟨S_, .i32⟩
  | .hbm, ⟨32, _⟩ => ⟨S500000, .i32⟩
  | .hbm, ⟨33, _⟩ => ⟨S500000, .i1⟩
  | .hbm, ⟨34, _⟩ => ⟨S500000, .i1⟩
  | .hbm, ⟨35, _⟩ => ⟨S_, .i32⟩
  | .hbm, ⟨36, _⟩ => ⟨S500000, .i32⟩
  | .hbm, ⟨37, _⟩ => ⟨S500000, .i32⟩
  | .hbm, ⟨38, _⟩ => ⟨S_, .i32⟩
  | .hbm, ⟨39, _⟩ => ⟨S_, .i32⟩
  | .hbm, ⟨40, _⟩ => ⟨S_, .i32⟩
  | .hbm, ⟨41, _⟩ => ⟨S500000, .i32⟩
  | .hbm, ⟨42, _⟩ => ⟨S500000, .i32⟩
  | .hbm, ⟨43, _⟩ => ⟨S_, .i32⟩
  | .hbm, ⟨44, _⟩ => ⟨S500000, .i32⟩
  | .hbm, ⟨45, _⟩ => ⟨S500000, .i32⟩
  | .hbm, ⟨46, _⟩ => ⟨S500000x1, .i1⟩
  | .hbm, ⟨47, _⟩ => ⟨S_, .i32⟩
  | .hbm, ⟨48, _⟩ => ⟨S500000, .i32⟩
  | .hbm, ⟨49, _⟩ => ⟨S500000, .i1⟩
  | .hbm, ⟨50, _⟩ => ⟨S_, .i32⟩
  | .hbm, ⟨51, _⟩ => ⟨S500000, .i32⟩
  | .hbm, ⟨52, _⟩ => ⟨S500000, .i32⟩
  | .hbm, ⟨53, _⟩ => ⟨S500000, .i32⟩
  | .hbm, ⟨54, _⟩ => ⟨S500000x1, .i32⟩
  | .hbm, ⟨55, _⟩ => ⟨S500000x128, .f32⟩
  | .hbm, ⟨56, _⟩ => ⟨S_, .f32⟩
  | .hbm, ⟨57, _⟩ => ⟨S_, .f32⟩
  | .hbm, ⟨58, _⟩ => ⟨S500000x128, .i1⟩
  | .hbm, ⟨59, _⟩ => ⟨S500000x128, .f32⟩
  | .hbm, ⟨60, _⟩ => ⟨S500000x128, .f32⟩
  | .local _ .vmem, ⟨0, _⟩ => ⟨S10000x128, .f32⟩
  | .local _ .vmem, ⟨1, _⟩ => ⟨S10000x128, .f32⟩
  | .local _ .vmem, ⟨2, _⟩ => ⟨S128x128, .f32⟩
  | .local _ .vmem, ⟨3, _⟩ => ⟨S128, .f32⟩
  | .local _ .vmem, ⟨4, _⟩ => ⟨S10000x128, .bf16⟩
  | .local _ .vmem, ⟨5, _⟩ => ⟨S10000x128, .bf16⟩
  | .local _ .vmem, ⟨6, _⟩ => ⟨S4000x128, .f32⟩
  | .local _ .vmem, ⟨7, _⟩ => ⟨S4000x128, .f32⟩
  | .local _ .vmem, ⟨8, _⟩ => ⟨S128, .f32⟩
  | .local _ .vmem, ⟨9, _⟩ => ⟨S128, .f32⟩
  | .local _ .vmem, ⟨10, _⟩ => ⟨S4000x128, .f32⟩
  | .local _ .vmem, ⟨11, _⟩ => ⟨S4000x128, .f32⟩
  | _, _ => ⟨S500000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_c : Ref sig .tc := ⟨.hbm, 10, rfl⟩
abbrev main_v1 : Ref sig .tc := ⟨.hbm, 11, rfl⟩
abbrev main_v2 : Ref sig .tc := ⟨.hbm, 12, rfl⟩
abbrev main_c_0 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_c_1 : Ref sig .tc := ⟨.hbm, 28, rfl⟩
abbrev main_v16 : Ref sig .tc := ⟨.hbm, 29, rfl⟩
abbrev main_v17 : Ref sig .tc := ⟨.hbm, 30, rfl⟩
abbrev main_c_2 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_c_3 : Ref sig .tc := ⟨.hbm, 35, rfl⟩
abbrev main_v21 : Ref sig .tc := ⟨.hbm, 36, rfl⟩
abbrev main_v22 : Ref sig .tc := ⟨.hbm, 37, rfl⟩
abbrev main_c_4 : Ref sig .tc := ⟨.hbm, 38, rfl⟩
abbrev main_c_5 : Ref sig .tc := ⟨.hbm, 39, rfl⟩
abbrev main_call0_v0 : Ref sig .tc := ⟨.hbm, 40, rfl⟩
abbrev main_call0_v1 : Ref sig .tc := ⟨.hbm, 41, rfl⟩
abbrev main_call0_v2 : Ref sig .tc := ⟨.hbm, 42, rfl⟩
abbrev main_call0_v3 : Ref sig .tc := ⟨.hbm, 43, rfl⟩
abbrev main_call0_v4 : Ref sig .tc := ⟨.hbm, 44, rfl⟩
abbrev main_v23 : Ref sig .tc := ⟨.hbm, 45, rfl⟩
abbrev main_v24 : Ref sig .tc := ⟨.hbm, 46, rfl⟩
abbrev main_c_6 : Ref sig .tc := ⟨.hbm, 47, rfl⟩
abbrev main_v25 : Ref sig .tc := ⟨.hbm, 48, rfl⟩
abbrev main_v26 : Ref sig .tc := ⟨.hbm, 49, rfl⟩
abbrev main_c_7 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_cst_8 : Ref sig .tc := ⟨.hbm, 56, rfl⟩
abbrev main_call1_v0 : Ref sig .tc := ⟨.hbm, 57, rfl⟩
abbrev main_call1_v1 : Ref sig .tc := ⟨.hbm, 58, rfl⟩
abbrev main_call1_v2 : Ref sig .tc := ⟨.hbm, 59, rfl⟩
abbrev main_v32 : Ref sig .tc := ⟨.hbm, 60, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S10000x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_2 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S4000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S4000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

class Facts₀ : Prop where
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S128_S128_0 : ∀ a, (![0] : Fin 1 → Nat) a + S128.size a ≤ S128.size a
  h_S128 : 0 < S128.numel
  shapeCasts_S128_S1x128 : S128.ShapeCasts S1x128
  broadcasts_S1x128_S10000x128 : S1x128.Broadcasts S10000x128
  packedbf16_S10000x128_S10000x128_0_0 : (Rect.unit (s := S10000x128) ![0, 0] S10000x128.size inb_S10000x128_S10000x128_0_0).PackedRows (EltTy.packing .bf16)
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  inb_S4000x128_S4000x128_0_0 : ∀ a, (![0, 0] : Fin 2 → Nat) a + S4000x128.size a ≤ S4000x128.size a
  h_S4000x128 : 0 < S4000x128.numel
  shapeCasts_S4000x128_S4000x128 : S4000x128.ShapeCasts S4000x128
  reduces_S4000x128_S4000 : S4000x128.Reduces [1] S4000
  shapeCasts_S4000_S4000x1 : S4000.ShapeCasts S4000x1
  broadcasts_S4000x1_S4000x128 : S4000x1.Broadcasts S4000x128
  broadcasts_S1x128_S4000x128 : S1x128.Broadcasts S4000x128
  bcast_S_S500000 : S_.BroadcastsInDim S500000 (![] : Fin 0 → Fin S500000.rank)
  bcast_S500000_S500000x1_0 : S500000.BroadcastsInDim S500000x1 (![0] : Fin 1 → Fin S500000x1.rank)
  bcast_S500000x1_S500000x128_0_1 : S500000x1.BroadcastsInDim S500000x128 (![0, 1] : Fin 2 → Fin S500000x128.rank)
  bcast_S_S500000x128 : S_.BroadcastsInDim S500000x128 (![] : Fin 0 → Fin S500000x128.rank)
  dot_S10000x128_S128x128_S10000x128_1_0_0_1_n_n_wf : DotDims.WF S10000x128 S128x128 S10000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  gather_S100000x128_S500000x1_S500000x128_1_0_n_n_0_1_1128_wf : GatherDims.WF S100000x128 S500000x1 S500000x128 [1] [0] [] [0] [] 1 ![1, 128]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128.size a ≤ S128.size a
  hwx0_2 : ∀ i : grid0.Coords, EltTy.bits .f32 = 32 ∨ (Rect.block (s := S128) S128.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S10000x128.size a ≤ S100000x128.size a
  hwx0_3 : ∀ i : grid0.Coords, EltTy.bits .bf16 = 32 ∨ (Rect.block (s := S100000x128) S10000x128.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S4000x128.size a ≤ S100000x128.size a
  hwx1_0 : ∀ i : grid1.Coords, EltTy.bits .f32 = 32 ∨ (Rect.block (s := S100000x128) S4000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128.size a ≤ S128.size a
  hwx1_1 : ∀ i : grid1.Coords, EltTy.bits .f32 = 32 ∨ (Rect.block (s := S128) S128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128.size a ≤ S128.size a
  hwx1_2 : ∀ i : grid1.Coords, EltTy.bits .f32 = 32 ∨ (Rect.block (s := S128) S128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S4000x128.size a ≤ S100000x128.size a
  hwx1_3 : ∀ i : grid1.Coords, EltTy.bits .f32 = 32 ∨ (Rect.block (s := S100000x128) S4000x128.size (cc1_transform_3 i) (hinb1_3 i)).WholeWords (EltTy.packing .f32)

variable [Facts₀]

def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def gather_S100000x128_S500000x1_S500000x128_1_0_n_n_0_1_1128 : GatherDims S100000x128 S500000x1 S500000x128 where
  offsetDims := [1]
  collapsedSliceDims := [0]
  operandBatchingDims := []
  startIndicesBatchingDims := []
  startIndexMap := [0]
  indexVectorDim := 1
  sliceSizes := ![1, 128]
  wf := gather_S100000x128_S500000x1_S500000x128_1_0_n_n_0_1_1128_wf

abbrev win0_0 : Pipeline.Window sig grid0 :=
  Pipeline.Window.ofSpec (Memref.whole main_arg1) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S10000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v14) S4000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg7) S128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_arg8) S128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v15) S4000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

class Facts : Prop extends Facts₀ where

variable [Facts]
-- ==== ReferenceIdeal.lean ====
abbrev S500000 : Shape := ⟨1, ![500000]⟩
abbrev S100000x128 : Shape := ⟨2, ![100000, 128]⟩
abbrev S128x128 : Shape := ⟨2, ![128, 128]⟩
abbrev S128 : Shape := ⟨1, ![128]⟩
abbrev S1600000 : Shape := ⟨1, ![1600000]⟩
abbrev S1x128 : Shape := ⟨2, ![1, 128]⟩
abbrev S1600000x1 : Shape := ⟨2, ![1600000, 1]⟩
abbrev S_ : Shape := ⟨0, ![]⟩
abbrev S1600000x128 : Shape := ⟨2, ![1600000, 128]⟩
abbrev S100000 : Shape := ⟨1, ![100000]⟩
abbrev S100000x1 : Shape := ⟨2, ![100000, 1]⟩
abbrev S500000x1 : Shape := ⟨2, ![500000, 1]⟩
abbrev S500000x128 : Shape := ⟨2, ![500000, 128]⟩

abbrev nBuf : Space → Nat
  | .hbm => 94
  | .vmem => 0
  | .smem => 0
  | _ => 0

abbrev bufTy : (tb : Table) → Fin (tcTables nBuf tb) → BufTy
  | .hbm, ⟨0, _⟩ => ⟨S500000, .i32⟩
  | .hbm, ⟨1, _⟩ => ⟨S100000x128, .f32⟩
  | .hbm, ⟨2, _⟩ => ⟨S128x128, .f32⟩
  | .hbm, ⟨3, _⟩ => ⟨S128, .f32⟩
  | .hbm, ⟨4, _⟩ => ⟨S1600000, .f32⟩
  | .hbm, ⟨5, _⟩ => ⟨S1600000, .i32⟩
  | .hbm, ⟨6, _⟩ => ⟨S1600000, .i32⟩
  | .hbm, ⟨7, _⟩ => ⟨S128, .f32⟩
  | .hbm, ⟨8, _⟩ => ⟨S128, .f32⟩
  | .hbm, ⟨9, _⟩ => ⟨S100000x128, .f32⟩
  | .hbm, ⟨10, _⟩ => ⟨S1x128, .f32⟩
  | .hbm, ⟨11, _⟩ => ⟨S100000x128, .f32⟩
  | .hbm, ⟨12, _⟩ => ⟨S100000x128, .f32⟩
  | .hbm, ⟨13, _⟩ => ⟨S1600000x1, .f32⟩
  | .hbm, ⟨14, _⟩ => ⟨S_, .i32⟩
  | .hbm, ⟨15, _⟩ => ⟨S1600000, .i32⟩
  | .hbm, ⟨16, _⟩ => ⟨S1600000, .i1⟩
  | .hbm, ⟨17, _⟩ => ⟨S_, .i32⟩
  | .hbm, ⟨18, _⟩ => ⟨S1600000, .i32⟩
  | .hbm, ⟨19, _⟩ => ⟨S1600000, .i32⟩
  | .hbm, ⟨20, _⟩ => ⟨S1600000, .i32⟩
  | .hbm, ⟨21, _⟩ => ⟨S1600000x1, .i32⟩
  | .hbm, ⟨22, _⟩ => ⟨S1600000x128, .f32⟩
  | .hbm, ⟨23, _⟩ => ⟨S1600000x128, .f32⟩
  | .hbm, ⟨24, _⟩ => ⟨S1600000x128, .f32⟩
  | .hbm, ⟨25, _⟩ => ⟨S_, .f32⟩
  | .hbm, ⟨26, _⟩ => ⟨S100000x128, .f32⟩
  | .hbm, ⟨27, _⟩ => ⟨S1600000x1, .i32⟩
  | .hbm, ⟨28, _⟩ => ⟨S100000x128, .f32⟩
  | .hbm, ⟨29, _⟩ => ⟨S_, .f32⟩
  | .hbm, ⟨30, _⟩ => ⟨S100000x128, .f32⟩
  | .hbm, ⟨31, _⟩ => ⟨S100000x128, .f32⟩
  | .hbm, ⟨32, _⟩ => ⟨S_, .f32⟩
  | .hbm, ⟨33, _⟩ => ⟨S100000, .f32⟩
  | .hbm, ⟨34, _⟩ => ⟨S100000x1, .f32⟩
  | .hbm, ⟨35, _⟩ => ⟨S_, .f32⟩
  | .hbm, ⟨36, _⟩ => ⟨S100000x1, .f32⟩
  | .hbm, ⟨37, _⟩ => ⟨S100000x1, .f32⟩
  | .hbm, ⟨38, _⟩ => ⟨S100000x128, .f32⟩
  | .hbm, ⟨39, _⟩ => ⟨S100000x128, .f32⟩
  | .hbm, ⟨40, _⟩ => ⟨S100000x128, .f32⟩
  | .hbm, ⟨41, _⟩ => ⟨S_, .f32⟩
  | .hbm, ⟨42, _⟩ => ⟨S100000, .f32⟩
  | .hbm, ⟨43, _⟩ => ⟨S100000x1, .f32⟩
  | .hbm, ⟨44, _⟩ => ⟨S_, .f32⟩
  | .hbm, ⟨45, _⟩ => ⟨S100000x1, .f32⟩
  | .hbm, ⟨46, _⟩ => ⟨S100000x1, .f32⟩
  | .hbm, ⟨47, _⟩ => ⟨S100000x128, .f32⟩
  | .hbm, ⟨48, _⟩ => ⟨S100000x128, .f32⟩
  | .hbm, ⟨49, _⟩ => ⟨S_, .f32⟩
  | .hbm, ⟨50, _⟩ => ⟨S100000x1, .f32⟩
  | .hbm, ⟨51, _⟩ => ⟨S100000x1, .f32⟩
  | .hbm, ⟨52, _⟩ => ⟨S100000x1, .f32⟩
  | .hbm, ⟨53, _⟩ => ⟨S100000x128, .f32⟩
  | .hbm, ⟨54, _⟩ => ⟨S100000x128, .f32⟩
  | .hbm, ⟨55, _⟩ => ⟨S1x128, .f32⟩
  | .hbm, ⟨56, _⟩ => ⟨S100000x128, .f32⟩
  | .hbm, ⟨57, _⟩ => ⟨S100000x128, .f32⟩
  | .hbm, ⟨58, _⟩ => ⟨S1x128, .f32⟩
  | .hbm, ⟨59, _⟩ => ⟨S100000x128, .f32⟩
  | .hbm, ⟨60, _⟩ => ⟨S100000x128, .f32⟩
  | .hbm, ⟨61, _⟩ => ⟨S_, .i32⟩
  | .hbm, ⟨62, _⟩ => ⟨S500000, .i32⟩
  | .hbm, ⟨63, _⟩ => ⟨S500000, .i1⟩
  | .hbm, ⟨64, _⟩ => ⟨S_, .i32⟩
  | .hbm, ⟨65, _⟩ => ⟨S500000, .i32⟩
  | .hbm, ⟨66, _⟩ => ⟨S500000, .i1⟩
  | .hbm, ⟨67, _⟩ => ⟨S500000, .i1⟩
  | .hbm, ⟨68, _⟩ => ⟨S_, .i32⟩
  | .hbm, ⟨69, _⟩ => ⟨S500000, .i32⟩
  | .hbm, ⟨70, _⟩ => ⟨S500000, .i32⟩
  | .hbm, ⟨71, _⟩ => ⟨S_, .i32⟩
  | .hbm, ⟨72, _⟩ => ⟨S_, .i32⟩
  | .hbm, ⟨73, _⟩ => ⟨S_, .i32⟩
  | .hbm, ⟨74, _⟩ => ⟨S500000, .i32⟩
  | .hbm, ⟨75, _⟩ => ⟨S500000, .i32⟩
  | .hbm, ⟨76, _⟩ => ⟨S_, .i32⟩
  | .hbm, ⟨77, _⟩ => ⟨S500000, .i32⟩
  | .hbm, ⟨78, _⟩ => ⟨S500000, .i32⟩
  | .hbm, ⟨79, _⟩ => ⟨S500000x1, .i1⟩
  | .hbm, ⟨80, _⟩ => ⟨S_, .i32⟩
  | .hbm, ⟨81, _⟩ => ⟨S500000, .i32⟩
  | .hbm, ⟨82, _⟩ => ⟨S500000, .i1⟩
  | .hbm, ⟨83, _⟩ => ⟨S_, .i32⟩
  | .hbm, ⟨84, _⟩ => ⟨S500000, .i32⟩
  | .hbm, ⟨85, _⟩ => ⟨S500000, .i32⟩
  | .hbm, ⟨86, _⟩ => ⟨S500000, .i32⟩
  | .hbm, ⟨87, _⟩ => ⟨S500000x1, .i32⟩
  | .hbm, ⟨88, _⟩ => ⟨S500000x128, .f32⟩
  | .hbm, ⟨89, _⟩ => ⟨S_, .f32⟩
  | .hbm, ⟨90, _⟩ => ⟨S_, .f32⟩
  | .hbm, ⟨91, _⟩ => ⟨S500000x128, .i1⟩
  | .hbm, ⟨92, _⟩ => ⟨S500000x128, .f32⟩
  | .hbm, ⟨93, _⟩ => ⟨S500000x128, .f32⟩
  | _, _ => ⟨S500000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_c : Ref sig .tc := ⟨.hbm, 14, rfl⟩
abbrev main_v5 : Ref sig .tc := ⟨.hbm, 15, rfl⟩
abbrev main_v6 : Ref sig .tc := ⟨.hbm, 16, rfl⟩
abbrev main_c_0 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_call0_cst : Ref sig .tc := ⟨.hbm, 29, rfl⟩
abbrev main_call0_v0 : Ref sig .tc := ⟨.hbm, 30, rfl⟩
abbrev main_v17 : Ref sig .tc := ⟨.hbm, 31, rfl⟩
abbrev main_cst_1 : Ref sig .tc := ⟨.hbm, 32, rfl⟩
abbrev main_v18 : Ref sig .tc := ⟨.hbm, 33, rfl⟩
abbrev main_v19 : Ref sig .tc := ⟨.hbm, 34, rfl⟩
abbrev main_cst_2 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_cst_3 : Ref sig .tc := ⟨.hbm, 41, rfl⟩
abbrev main_v25 : Ref sig .tc := ⟨.hbm, 42, rfl⟩
abbrev main_v26 : Ref sig .tc := ⟨.hbm, 43, rfl⟩
abbrev main_cst_4 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_cst_5 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_c_6 : Ref sig .tc := ⟨.hbm, 61, rfl⟩
abbrev main_v42 : Ref sig .tc := ⟨.hbm, 62, rfl⟩
abbrev main_v43 : Ref sig .tc := ⟨.hbm, 63, rfl⟩
abbrev main_c_7 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_c_8 : Ref sig .tc := ⟨.hbm, 68, rfl⟩
abbrev main_v47 : Ref sig .tc := ⟨.hbm, 69, rfl⟩
abbrev main_v48 : Ref sig .tc := ⟨.hbm, 70, rfl⟩
abbrev main_c_9 : Ref sig .tc := ⟨.hbm, 71, rfl⟩
abbrev main_c_10 : Ref sig .tc := ⟨.hbm, 72, rfl⟩
abbrev main_call1_v0 : Ref sig .tc := ⟨.hbm, 73, rfl⟩
abbrev main_call1_v1 : Ref sig .tc := ⟨.hbm, 74, rfl⟩
abbrev main_call1_v2 : Ref sig .tc := ⟨.hbm, 75, rfl⟩
abbrev main_call1_v3 : Ref sig .tc := ⟨.hbm, 76, rfl⟩
abbrev main_call1_v4 : Ref sig .tc := ⟨.hbm, 77, rfl⟩
abbrev main_v49 : Ref sig .tc := ⟨.hbm, 78, rfl⟩
abbrev main_v50 : Ref sig .tc := ⟨.hbm, 79, rfl⟩
abbrev main_c_11 : Ref sig .tc := ⟨.hbm, 80, rfl⟩
abbrev main_v51 : Ref sig .tc := ⟨.hbm, 81, rfl⟩
abbrev main_v52 : Ref sig .tc := ⟨.hbm, 82, rfl⟩
abbrev main_c_12 : Ref sig .tc := ⟨.hbm, 83, rfl⟩
abbrev main_v53 : Ref sig .tc := ⟨.hbm, 84, rfl⟩
abbrev main_v54 : Ref sig .tc := ⟨.hbm, 85, rfl⟩
abbrev main_v55 : Ref sig .tc := ⟨.hbm, 86, rfl⟩
abbrev main_v56 : Ref sig .tc := ⟨.hbm, 87, rfl⟩
abbrev main_v57 : Ref sig .tc := ⟨.hbm, 88, rfl⟩
abbrev main_cst_13 : Ref sig .tc := ⟨.hbm, 89, rfl⟩
abbrev main_call2_v0 : Ref sig .tc := ⟨.hbm, 90, rfl⟩
abbrev main_call2_v1 : Ref sig .tc := ⟨.hbm, 91, rfl⟩
abbrev main_call2_v2 : Ref sig .tc := ⟨.hbm, 92, rfl⟩
abbrev main_v58 : Ref sig .tc := ⟨.hbm, 93, rfl⟩

abbrev nD : Nat := 1
abbrev τ : Topo := Topo.v7x

variable {F : FTy → Type} [FloatOps F]

class Facts₀ : Prop where
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S1600000_S1600000x1_0 : S1600000.BroadcastsInDim S1600000x1 (![0] : Fin 1 → Fin S1600000x1.rank)
  bcast_S_S1600000 : S_.BroadcastsInDim S1600000 (![] : Fin 0 → Fin S1600000.rank)
  bcast_S1600000x1_S1600000x128_0_1 : S1600000x1.BroadcastsInDim S1600000x128 (![0, 1] : Fin 2 → Fin S1600000x128.rank)
  bcast_S_S100000x128 : S_.BroadcastsInDim S100000x128 (![] : Fin 0 → Fin S100000x128.rank)
  reducesTo_S100000x128_S100000_d1 : S100000x128.ReducesTo [1] S100000
  h_S_ : 0 < S_.numel
  bcast_S100000_S100000x1_0 : S100000.BroadcastsInDim S100000x1 (![0] : Fin 1 → Fin S100000x1.rank)
  bcast_S_S100000x1 : S_.BroadcastsInDim S100000x1 (![] : Fin 0 → Fin S100000x1.rank)
  bcast_S100000x1_S100000x128_0_1 : S100000x1.BroadcastsInDim S100000x128 (![0, 1] : Fin 2 → Fin S100000x128.rank)
  bcast_S_S500000 : S_.BroadcastsInDim S500000 (![] : Fin 0 → Fin S500000.rank)
  bcast_S500000_S500000x1_0 : S500000.BroadcastsInDim S500000x1 (![0] : Fin 1 → Fin S500000x1.rank)
  bcast_S500000x1_S500000x128_0_1 : S500000x1.BroadcastsInDim S500000x128 (![0, 1] : Fin 2 → Fin S500000x128.rank)
  bcast_S_S500000x128 : S_.BroadcastsInDim S500000x128 (![] : Fin 0 → Fin S500000x128.rank)
  dot_S100000x128_S128x128_S100000x128_1_0_0_1_n_n_wf : DotDims.WF S100000x128 S128x128 S100000x128 [1] [0] [0] [1] [] []
  gather_S100000x128_S1600000x1_S1600000x128_1_0_n_n_0_1_1128_wf : GatherDims.WF S100000x128 S1600000x1 S1600000x128 [1] [0] [] [0] [] 1 ![1, 128]
  scatter_S100000x128_S1600000x1_S1600000x128_1_0_0_1_wf : ScatterDims.WF S100000x128 S1600000x1 S1600000x128 [1] [0] [0] 1
  gather_S100000x128_S500000x1_S500000x128_1_0_n_n_0_1_1128_wf : GatherDims.WF S100000x128 S500000x1 S500000x128 [1] [0] [] [0] [] 1 ![1, 128]

variable [Facts₀]

def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S1600000x1_S1600000x128_1_0_n_n_0_1_1128 : GatherDims S100000x128 S1600000x1 S1600000x128 where
  offsetDims := [1]
  collapsedSliceDims := [0]
  operandBatchingDims := []
  startIndicesBatchingDims := []
  startIndexMap := [0]
  indexVectorDim := 1
  sliceSizes := ![1, 128]
  wf := gather_S100000x128_S1600000x1_S1600000x128_1_0_n_n_0_1_1128_wf
def scatter_S100000x128_S1600000x1_S1600000x128_1_0_0_1 : ScatterDims S100000x128 S1600000x1 S1600000x128 where
  updateWindowDims := [1]
  insertedWindowDims := [0]
  scatterDimsToOperandDims := [0]
  indexVectorDim := 1
  wf := scatter_S100000x128_S1600000x1_S1600000x128_1_0_0_1_wf
def gather_S100000x128_S500000x1_S500000x128_1_0_n_n_0_1_1128 : GatherDims S100000x128 S500000x1 S500000x128 where
  offsetDims := [1]
  collapsedSliceDims := [0]
  operandBatchingDims := []
  startIndicesBatchingDims := []
  startIndexMap := [0]
  indexVectorDim := 1
  sliceSizes := ![1, 128]
  wf := gather_S100000x128_S500000x1_S500000x128_1_0_n_n_0_1_1128_wf

class Facts : Prop extends Facts₀ where

variable [Facts]
-- ==== Proof.HostFns.lean ====
/-
  The reference's computation as four whole-array functions, composed.

  A graph-convolution layer over 100000 nodes with 128 features: a dense linear map of the node features
  (`linear`: X·W plus a bias row); the sparse aggregation over 1600000 weighted edges (`aggregate`: the feature row of
  each edge's source node, scaled by the edge's weight, summed into the edge's target row; a negative source index
  counts from the end); a rectified layer normalisation of each row (`layerNorm`: the row's entries clipped below at
  zero, centred by their mean over the 128 features, scaled by the reciprocal root of their mean squared deviation
  plus a small constant, then by a gain row, plus an offset row); and a masked lookup (`lookup`: query i reads row
  x i - 1 when 1 ≤ x i ≤ 100000, clamped into range, and is zero otherwise).

  The reference's result term is the composition of the four (`reference_result`): the definitions below spell
  the reference's own operations, so the equation holds by unfolding them.
-/
import proofs.«179502_j39462159515868_2_alg».proof.Proof.Gen.ReferenceIdeal.Run

set_option maxRecDepth 16384

noncomputable section

namespace Cert.GraphConv

open Cert.ReferenceIdeal Cert.ReferenceIdeal.Gen Idealize.ShloMosaic Idealize.ShloMosaic.TcCoe Idealize.SL.Sem

variable {F : FTy → Type} [FloatOps F]

/-- Node features, a matrix of 100000 rows and 128 columns. -/
abbrev Feat (F : FTy → Type) : Type := (⟨S100000x128, .f32⟩ : BufTy).Contents (Elt F)
/-- A row of 128 values. -/
abbrev Row (F : FTy → Type) : Type := (⟨S128, .f32⟩ : BufTy).Contents (Elt F)

/-- A row repeated along the 100000 rows. -/
def rows (v : Row F) : Feat F :=
  broadcastInDim S100000x128 ![0, 1] bcast_S1x128_S100000x128_0_1 (broadcastInDim S1x128 ![1] bcast_S128_S1x128_1 v)

/-- The dense layer: the product of the features with the weights, plus the bias row. -/
def linear (x : Feat F) (w : (⟨S128x128, .f32⟩ : BufTy).Contents (Elt F)) (b : Row F) : Feat F :=
  addf (Host.dotGeneral dot_S100000x128_S128x128_S100000x128_1_0_0_1_n_n none x w) (rows b)

/-- An edge's source index, a negative one counting from the end. -/
def wrapSource (cols : (⟨S1600000, .i32⟩ : BufTy).Contents (Elt F)) : (⟨S1600000, .i32⟩ : BufTy).Contents (Elt F) :=
  select (cmpi .slt cols (broadcastInDim S1600000 ![] bcast_S_S1600000 (constantI S_ 32 0#32)))
    (addi cols (broadcastInDim S1600000 ![] bcast_S_S1600000 (constantI S_ 32 100000#32))) cols

/-- The sparse aggregation: each edge's source row scaled by the edge's weight, summed into the edge's target row. -/
def aggregate (h : Feat F) (vals : (⟨S1600000, .f32⟩ : BufTy).Contents (Elt F))
    (rws cols : (⟨S1600000, .i32⟩ : BufTy).Contents (Elt F)) : Feat F :=
  Host.scatterAdd scatter_S100000x128_S1600000x1_S1600000x128_1_0_0_1
    (broadcastInDim S100000x128 ![] bcast_S_S100000x128 (constant S_ .f32 0x00000000#32))
    (broadcastInDim S1600000x1 ![0] bcast_S1600000_S1600000x1_0 rws)
    (mulf (broadcastInDim S1600000x128 ![0, 1] bcast_S1600000x1_S1600000x128_0_1 (broadcastInDim S1600000x1 ![0] bcast_S1600000_S1600000x1_0 vals))
      (Host.gather gather_S100000x128_S1600000x1_S1600000x128_1_0_n_n_0_1_1128 h
        (broadcastInDim S1600000x1 ![0] bcast_S1600000_S1600000x1_0 (wrapSource cols))))

/-- The entries clipped below at zero. -/
def rectify (h : Feat F) : Feat F :=
  maximumf h (broadcastInDim S100000x128 ![] bcast_S_S100000x128 (constant S_ .f32 0x00000000#32))

/-- Each row's mean over its 128 entries, as a column. -/
def rowMean (r : Feat F) : (⟨S100000x1, .f32⟩ : BufTy).Contents (Elt F) :=
  Host.divf (broadcastInDim S100000x1 ![0] bcast_S100000_S100000x1_0
      (Host.reduceAdd r (constant S_ .f32 0x00000000#32) reducesTo_S100000x128_S100000_d1 h_S_))
    (broadcastInDim S100000x1 ![] bcast_S_S100000x1 (constant S_ .f32 0x43000000#32))

/-- A column repeated along the 128 columns. -/
def cols (v : (⟨S100000x1, .f32⟩ : BufTy).Contents (Elt F)) : Feat F :=
  broadcastInDim S100000x128 ![0, 1] bcast_S100000x1_S100000x128_0_1 v

/-- The rows centred by their means. -/
def centre (r : Feat F) : Feat F := subf r (cols (rowMean r))

/-- The rectified layer normalisation with gain `g` and offset `b`. -/
def layerNorm (h : Feat F) (g b : Row F) : Feat F :=
  addf (mulf (mulf (centre (rectify h))
      (cols (Host.rsqrt (addf (rowMean (mulf (centre (rectify h)) (centre (rectify h))))
        (broadcastInDim S100000x1 ![] bcast_S_S100000x1 (constant S_ .f32 0x3727C5AC#32))))))
    (rows g)) (rows b)

/-- A query's row index: one less than the query, clamped into 0 … 99999 (and, were it negative, counted from the end). -/
def lookupRow (x : (⟨S500000, .i32⟩ : BufTy).Contents (Elt F)) : (⟨S500000, .i32⟩ : BufTy).Contents (Elt F) :=
  select (cmpi .slt (minsi (broadcastInDim S500000 ![] bcast_S_S500000 (id (constantI S_ 32 99999#32)))
        (maxsi (broadcastInDim S500000 ![] bcast_S_S500000 (id (constantI S_ 32 0#32))) (subi x (broadcastInDim S500000 ![] bcast_S_S500000 (constantI S_ 32 1#32)))))
      (broadcastInDim S500000 ![] bcast_S_S500000 (constantI S_ 32 0#32)))
    (addi (minsi (broadcastInDim S500000 ![] bcast_S_S500000 (id (constantI S_ 32 99999#32)))
        (maxsi (broadcastInDim S500000 ![] bcast_S_S500000 (id (constantI S_ 32 0#32))) (subi x (broadcastInDim S500000 ![] bcast_S_S500000 (constantI S_ 32 1#32)))))
      (broadcastInDim S500000 ![] bcast_S_S500000 (constantI S_ 32 100000#32)))
    (minsi (broadcastInDim S500000 ![] bcast_S_S500000 (id (constantI S_ 32 99999#32)))
      (maxsi (broadcastInDim S500000 ![] bcast_S_S500000 (id (constantI S_ 32 0#32))) (subi x (broadcastInDim S500000 ![] bcast_S_S500000 (constantI S_ 32 1#32)))))

/-- The masked lookup of 500000 queries into the table `h`. -/
def lookup (h : Feat F) (x : (⟨S500000, .i32⟩ : BufTy).Contents (Elt F)) : (⟨S500000x128, .f32⟩ : BufTy).Contents (Elt F) :=
  select (broadcastInDim S500000x128 ![0, 1] bcast_S500000x1_S500000x128_0_1 (broadcastInDim S500000x1 ![0] bcast_S500000_S500000x1_0
      (andi (cmpi .sge x (broadcastInDim S500000 ![] bcast_S_S500000 (constantI S_ 32 1#32)))
        (cmpi .slt x (broadcastInDim S500000 ![] bcast_S_S500000 (constantI S_ 32 100001#32))))))
    (Host.gather gather_S100000x128_S500000x1_S500000x128_1_0_n_n_0_1_1128 h
      (broadcastInDim S500000x1 ![0] bcast_S500000_S500000x1_0 (lookupRow x)))
    (broadcastInDim S500000x128 ![] bcast_S_S500000x128 (id (constant S_ .f32 0x00000000#32)))

/-- The whole layer as one function of the nine argument arrays. -/
def layer (x : (⟨S500000, .i32⟩ : BufTy).Contents (Elt F)) (emb : Feat F) (w : (⟨S128x128, .f32⟩ : BufTy).Contents (Elt F)) (b : Row F)
    (vals : (⟨S1600000, .f32⟩ : BufTy).Contents (Elt F)) (rws cls : (⟨S1600000, .i32⟩ : BufTy).Contents (Elt F)) (g o : Row F) :
    (⟨S500000x128, .f32⟩ : BufTy).Contents (Elt F) :=
  lookup (layerNorm (aggregate (linear emb w b) vals rws cls) g o) x

/-- The reference's result term is the layer of the argument arrays. -/
theorem reference_result (m : (ℓ : Loc nD τ sig) → Buf (Elt F) ℓ) (c : Dev nD) :
    Cert.ReferenceIdeal.Value.res_main_v58 m c
      = layer (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) (m ((c.tc : Thread nD τ).loc main_arg5))
          (m ((c.tc : Thread nD τ).loc main_arg6)) (m ((c.tc : Thread nD τ).loc main_arg7)) (m ((c.tc : Thread nD τ).loc main_arg8)) := rfl

end Cert.GraphConv

end
-- ==== Proof.KernelRun.lean ====
/-
  The idealized kernel's run with its result buffer named.

  The program is two pipelined regions among stretches of host operations; its buffer contents at the segment
  boundaries are a fold from the launch memory (the generated `W0 … W7`). Every weakly fair execution terminates
  with every unscoped buffer at the last boundary's contents: the frame states this for the argument arrays only,
  and the same reading at the result buffer gives the result as the fold's value there.
-/
import proofs.«179502_j39462159515868_2_alg».proof.Proof.Gen.KernelIdeal.Frame

set_option maxRecDepth 16384

noncomputable section

namespace Cert.KernelIdeal.RunNamed

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, with the result buffer at the last
    boundary's contents and the argument arrays as launched. -/
theorem run : θ_run defs (onTc (τ := τ) (main (F := F))) ⟨m, fun _ => 0, ρ⟩ (fun r => ∀ c : Dev nD,
      r.2.mem ((c.tc : Thread nD τ).loc main_v32) = W7 m ρ c (Proc.devRef .tc main_v32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h c =>
      ⟨h c _ (mem_uc main_v32 (by decide)),
       (h c _ (mem_uc main_arg0 (by decide))).trans (W7_main_arg0 m ρ c),
       (h c _ (mem_uc main_arg1 (by decide))).trans (W7_main_arg1 m ρ c),
       (h c _ (mem_uc main_arg2 (by decide))).trans (W7_main_arg2 m ρ c),
       (h c _ (mem_uc main_arg3 (by decide))).trans (W7_main_arg3 m ρ c),
       (h c _ (mem_uc main_arg4 (by decide))).trans (W7_main_arg4 m ρ c),
       (h c _ (mem_uc main_arg5 (by decide))).trans (W7_main_arg5 m ρ c),
       (h c _ (mem_uc main_arg6 (by decide))).trans (W7_main_arg6 m ρ c),
       (h c _ (mem_uc main_arg7 (by decide))).trans (W7_main_arg7 m ρ c),
       (h c _ (mem_uc main_arg8 (by decide))).trans (W7_main_arg8 m ρ c)⟩)

end Cert.KernelIdeal.RunNamed

end
-- ==== Proof.KernelHost.lean ====
/-
  The kernel program's host stretches, read as the layer's functions.

  Between its two regions the kernel program gathers the source rows of the first region's result, scales them by
  the edge weights and sums them into the target rows: the reference's `aggregate` of that result — the gathered rows
  pass through a change of float format, which is the identity on extended reals. After the second region it does the
  reference's masked `lookup` into that region's result.
-/
import proofs.«179502_j39462159515868_2_alg».proof.Proof.Gen.KernelIdeal.Launch
import proofs.«179502_j39462159515868_2_alg».proof.Proof.HostFns
import Idealize.ShloMosaic.Lib.StableHlo.Run
import Idealize.ShloMosaic.PureOps.Ideal

set_option maxRecDepth 16384

noncomputable section

namespace Cert.KernelIdeal.HostValue

open Cert.KernelIdeal Cert.KernelIdeal.Gen Idealize.ShloMosaic Idealize.ShloMosaic.TcCoe Idealize.SL.Sem Idealize.ShloMosaic.StableHlo
open Cert.GraphConv (aggregate lookup)

/-- The stretch between the regions leaves, in its last buffer, the aggregation of the first region's result. -/
theorem after_between (Vv : Valuation τ sig (Elt Ideal)) :
    StableHlo.after (hostOps1 (F := Ideal)) Vv (Proc.devRef .tc main_v14)
      = aggregate (F := Ideal) (Vv (Proc.devRef .tc main_v0)) (Vv (Proc.devRef .tc main_arg4)) (Vv (Proc.devRef .tc main_arg5)) (Vv (Proc.devRef .tc main_arg6)) := by
  after_results
  rfl

/-- The stretch between the regions leaves the queries, the gain row and the offset row as they were. -/
theorem after_between_queries (Vv : Valuation τ sig (Elt Ideal)) :
    StableHlo.after (hostOps1 (F := Ideal)) Vv (Proc.devRef .tc main_arg0) = Vv (Proc.devRef .tc main_arg0) := by
  after_results
theorem after_between_gain (Vv : Valuation τ sig (Elt Ideal)) :
    StableHlo.after (hostOps1 (F := Ideal)) Vv (Proc.devRef .tc main_arg7) = Vv (Proc.devRef .tc main_arg7) := by
  after_results
theorem after_between_offset (Vv : Valuation τ sig (Elt Ideal)) :
    StableHlo.after (hostOps1 (F := Ideal)) Vv (Proc.devRef .tc main_arg8) = Vv (Proc.devRef .tc main_arg8) := by
  after_results

/-- The stretches after the second region leave, in the result buffer, the masked lookup into that region's result. -/
theorem after_tail (Vv : Valuation τ sig (Elt Ideal)) :
    StableHlo.after (hostOps2_3 (F := Ideal)) (StableHlo.after (hostOps2_2 (F := Ideal)) (StableHlo.after (hostOps2_1 (F := Ideal)) (StableHlo.after (hostOps2 (F := Ideal)) Vv))) (Proc.devRef .tc main_v32)
      = lookup (F := Ideal) (Vv (Proc.devRef .tc main_v15)) (Vv (Proc.devRef .tc main_arg0)) := by
  after_results_simp
  rfl

end Cert.KernelIdeal.HostValue

end
-- ==== Proof.LibRowBlock.lean ====
/-
  Row blocks of a matrix product and of a row broadcast, at the ideal values.

  A kernel that walks the rows of a matrix in blocks computes, per block, the product of the block with the whole
  right operand and adds a bias row; the reference computes the product of the whole matrix once. At the ideal
  values both are the same sums, entry by entry: a plain product read at an entry is the sum over the contracted
  coordinate of the operands' products (for the kernel's product into a zero accumulator and for the host's), so
  the entry (p, q) of the product of the block of rows starting at row o is the entry (o + p, q) of the whole
  product; and a vector repeated along rows reads, at any entry, the vector at the entry's column.
-/
import Idealize.ShloMosaic.Lib.ValueLayout
import Idealize.ShloMosaic.PureOps.Ideal.Laws

noncomputable section

open scoped BigOperators

namespace Cert.LibRowBlock

open Idealize.ShloMosaic Idealize.ShloMosaic.ValueIdx

/-! ## A plain product read at an entry -/

section Product
variable {m k n : Nat} {φ₁ φ₂ : FTy}

/-- In a plain product the left operand's index at the entry (a, b) and contracted coordinate c is (a, c). -/
theorem plain_lhsIdx (a : Fin m) (b : Fin n) (c : Fin k) :
    (DotDims.plain m k n).lhsIdx (ix2 a b) ((contrEquiv1 (DotDims.plain m k n) k rfl rfl).symm c) = ix2 a c := by
  have c2 := contrEquiv1_symm_val (DotDims.plain m k n) k rfl rfl c
  funext ax; apply Fin.ext
  match ax with
  | ⟨0, _⟩ => simp [DotDims.lhsIdx, DotDims.plain]; rfl
  | ⟨1, _⟩ => simp [DotDims.lhsIdx, DotDims.plain]; exact c2

/-- … and the right operand's is (c, b). -/
theorem plain_rhsIdx (a : Fin m) (b : Fin n) (c : Fin k) :
    (DotDims.plain m k n).rhsIdx (ix2 a b) ((contrEquiv1 (DotDims.plain m k n) k rfl rfl).symm c) = ix2 c b := by
  have c2 := contrEquiv1_symm_val (DotDims.plain m k n) k rfl rfl c
  funext ax; apply Fin.ext
  match ax with
  | ⟨0, _⟩ => simp [DotDims.rhsIdx, DotDims.plain]; exact c2
  | ⟨1, _⟩ => simp [DotDims.rhsIdx, DotDims.plain]; rfl

/-- The kernel's product into the zero accumulator, for dimension numbers that are the plain product's (`hd`: by
    `rfl` for a printed record of those numbers), read at the entry (a, b): the sum over the contracted coordinate. -/
theorem matmul_zero_apply (d : DotDims (⟨2, ![m, k]⟩ : Shape) ⟨2, ![k, n]⟩ ⟨2, ![m, n]⟩) (hd : d = DotDims.plain m k n)
    (prec : Option ContractPrecision) (A : FVec Ideal ⟨2, ![m, k]⟩ φ₁) (B : FVec Ideal ⟨2, ![k, n]⟩ φ₂) (a : Fin m) (b : Fin n) :
    matmul d prec A B (constant (F := Ideal) ⟨2, ![m, n]⟩ .f32 0x00000000#32) (ix2 a b) = ∑ c : Fin k, A (ix2 a c) * B (ix2 c b) := by
  subst hd
  show FloatOps.matmul _ prec A B _ (ix2 a b) = _
  rw [Ideal.matmul_constant_zero_apply, ← Equiv.sum_comp (contrEquiv1 (DotDims.plain m k n) k rfl rfl).symm]
  refine Finset.sum_congr rfl fun c _ => ?_
  rw [plain_lhsIdx, plain_rhsIdx]

/-- The host's product, for dimension numbers that are the plain product's, read at the entry (a, b): the same sum. -/
theorem dotGeneral_apply (d : DotDims (⟨2, ![m, k]⟩ : Shape) ⟨2, ![k, n]⟩ ⟨2, ![m, n]⟩) (hd : d = DotDims.plain m k n)
    (prec : Option ContractPrecision) (A : FVec Ideal ⟨2, ![m, k]⟩ φ₁) (B : FVec Ideal ⟨2, ![k, n]⟩ φ₂) (a : Fin m) (b : Fin n) :
    Host.dotGeneral d prec A B (ix2 a b) = ∑ c : Fin k, A (ix2 a c) * B (ix2 c b) := by
  subst hd
  show FloatOps.dotGeneral _ prec _ A B (ix2 a b) = _
  rw [Ideal.dotGeneral_apply, ← Equiv.sum_comp (contrEquiv1 (DotDims.plain m k n) k rfl rfl).symm]
  refine Finset.sum_congr rfl fun c _ => ?_
  rw [plain_lhsIdx, plain_rhsIdx]

/-- A ROW BLOCK OF A PRODUCT IS THE PRODUCT OF THE ROW BLOCK. `Xb` holds the `m` rows of `X` from row `o` on
    (`hX`) and `Wb` is `W` entry by entry (`hW`; the operands' formats may differ: at the ideal values a format
    change is the identity): the kernel's product of the block into the zero accumulator at (p, q) is the host's
    product of the whole matrix at (o + p, q). -/
theorem matmul_zero_rowBlock {M : Nat} {φ₃ φ₄ : FTy}
    (d : DotDims (⟨2, ![m, k]⟩ : Shape) ⟨2, ![k, n]⟩ ⟨2, ![m, n]⟩) (hd : d = DotDims.plain m k n)
    (D : DotDims (⟨2, ![M, k]⟩ : Shape) ⟨2, ![k, n]⟩ ⟨2, ![M, n]⟩) (hD : D = DotDims.plain M k n)
    (prec prec' : Option ContractPrecision) (o : Nat)
    (X : FVec Ideal ⟨2, ![M, k]⟩ φ₃) (Xb : FVec Ideal ⟨2, ![m, k]⟩ φ₁) (W : FVec Ideal ⟨2, ![k, n]⟩ φ₄) (Wb : FVec Ideal ⟨2, ![k, n]⟩ φ₂)
    (hX : ∀ (p : Fin m) (c : Fin k) (h : o + p.val < M), Xb (ix2 p c) = X (ix2 ⟨o + p.val, h⟩ c))
    (hW : ∀ (c : Fin k) (q : Fin n), Wb (ix2 c q) = W (ix2 c q))
    (p : Fin m) (q : Fin n) (h : o + p.val < M) :
    matmul d prec Xb Wb (constant (F := Ideal) ⟨2, ![m, n]⟩ .f32 0x00000000#32) (ix2 p q)
      = Host.dotGeneral D prec' X W (ix2 ⟨o + p.val, h⟩ q) := by
  rw [matmul_zero_apply d hd, dotGeneral_apply D hD]
  exact Finset.sum_congr rfl fun c _ => by rw [hX p c h, hW c q]

end Product

/-! ## A vector repeated along rows -/

section Rows
variable {α : Type} {a b : Nat}

/-- The kernel's spelling — the vector given a leading unit axis and broadcast over `a` rows — reads, at (p, q),
    the vector at q. -/
theorem rows_kernel_apply0 (v : (⟨1, ![b]⟩ : Shape).Idx → α)
    (h1 : (⟨1, ![b]⟩ : Shape).ShapeCasts ⟨2, ![1, b]⟩) (h2 : (⟨2, ![1, b]⟩ : Shape).Broadcasts ⟨2, ![a, b]⟩)
    (p : Fin a) (q : Fin b) :
    broadcastTo ⟨2, ![a, b]⟩ (shapeCast ⟨2, ![1, b]⟩ v h1) h2 (ix2 p q) = v (ix1 q) := by
  rw [broadcastTo_1b_ab_apply, shapeCast_a_1a_apply]

/-- The same with the vector first cast to its own shape. -/
theorem rows_kernel_apply (v : (⟨1, ![b]⟩ : Shape).Idx → α) (h0 : (⟨1, ![b]⟩ : Shape).ShapeCasts ⟨1, ![b]⟩)
    (h1 : (⟨1, ![b]⟩ : Shape).ShapeCasts ⟨2, ![1, b]⟩) (h2 : (⟨2, ![1, b]⟩ : Shape).Broadcasts ⟨2, ![a, b]⟩)
    (p : Fin a) (q : Fin b) :
    broadcastTo ⟨2, ![a, b]⟩ (shapeCast ⟨2, ![1, b]⟩ (shapeCast ⟨1, ![b]⟩ v h0) h1) h2 (ix2 p q) = v (ix1 q) := by
  rw [broadcastTo_1b_ab_apply, shapeCast_a_1a_apply, shapeCast_self]

/-- The host's spelling — the vector broadcast into one row, the row broadcast over `a` rows — reads, at (p, q),
    the vector at q. -/
theorem rows_host_apply (v : (⟨1, ![b]⟩ : Shape).Idx → α)
    (h1 : (⟨1, ![b]⟩ : Shape).BroadcastsInDim ⟨2, ![1, b]⟩ (![1] : Fin 1 → Fin 2))
    (h2 : (⟨2, ![1, b]⟩ : Shape).BroadcastsInDim ⟨2, ![a, b]⟩ (![0, 1] : Fin 2 → Fin 2))
    (p : Fin a) (q : Fin b) :
    broadcastInDim ⟨2, ![a, b]⟩ (![0, 1] : Fin 2 → Fin 2) h2 (broadcastInDim ⟨2, ![1, b]⟩ (![1] : Fin 1 → Fin 2) h1 v) (ix2 p q) = v (ix1 q) := by
  rw [broadcastInDim_apply (![0, 1] : Fin 2 → Fin 2) h2 _ (ix2 p q) (ix2 (0 : Fin 1) q) (fun ax => by
    match ax with
    | ⟨0, _⟩ => rfl
    | ⟨1, _⟩ =>
      show q.val = if b = 1 then 0 else q.val
      split
      · have := q.isLt; omega
      · rfl)]
  exact broadcastInDim_apply (![1] : Fin 1 → Fin 2) h1 v (ix2 (0 : Fin 1) q) (ix1 q) (fun ax => by
    match ax with
    | ⟨0, _⟩ =>
      show q.val = if b = 1 then 0 else q.val
      split
      · have := q.isLt; omega
      · rfl)

end Rows

end Cert.LibRowBlock

end
-- ==== Proof.LinKernel.lean ====
/-
  The first region's body computes, at each entry of its block, the entry of the product of the block of feature rows
  with the weights, plus the bias at the entry's column. (The operands and the result pass through changes of float
  format, which are the identity on extended reals.)
-/
import proofs.«179502_j39462159515868_2_alg».proof.Proof.Gen.KernelIdeal.Skeleton
import proofs.«179502_j39462159515868_2_alg».proof.Proof.LibRowBlock
import Idealize.ShloMosaic.Lib.ValueLayout
import Idealize.ShloMosaic.Lib.Pipeline.Value
import Idealize.ShloMosaic.PureOps.Ideal.Laws

set_option maxRecDepth 16384

noncomputable section

open scoped BigOperators

namespace Cert.KernelIdeal.LinearBody

open Cert.KernelIdeal Cert.KernelIdeal.Gen Idealize.ShloMosaic Idealize.ShloMosaic.ValueIdx

/-- The payload of the body's one store, read at the entry (p, q) of the block. -/
theorem payload_apply (x0 : Vec Ideal S10000x128 .f32) (x1 : Vec Ideal S128x128 .f32) (x2 : Vec Ideal S128 .f32) (p : Fin 10000) (q : Fin 128) :
    k0_pay1 (F := Ideal) x0 x1 x2 (ix2 p q) = (∑ k : Fin 128, x0 (ix2 p k) * x1 (ix2 k q)) + x2 (ix1 q) := by
  have product : ∀ (A : FVec Ideal S10000x128 .bf16) (B : FVec Ideal S128x128 .bf16),
      matmul dot_S10000x128_S128x128_S10000x128_1_0_0_1_n_n none A B (constant (F := Ideal) S10000x128 .f32 0x00000000#32) (ix2 p q)
        = ∑ c : Fin 128, A (ix2 p c) * B (ix2 c q) :=
    fun A B => Cert.LibRowBlock.matmul_zero_apply _ rfl none A B p q
  unfold k0_pay1
  simp only [truncf_apply, addf_apply, product, Cert.LibRowBlock.rows_kernel_apply0]

end Cert.KernelIdeal.LinearBody

end
-- ==== Proof.LinHost.lean ====
/-
  The reference's dense layer, read at an entry: the entry of the product of the features with the weights, plus the
  bias at the entry's column.
-/
import proofs.«179502_j39462159515868_2_alg».proof.Proof.HostFns
import proofs.«179502_j39462159515868_2_alg».proof.Proof.LibRowBlock
import Idealize.ShloMosaic.Lib.ValueLayout
import Idealize.ShloMosaic.Lib.Pipeline.Value
import Idealize.ShloMosaic.PureOps.Ideal.Laws

set_option maxRecDepth 16384

noncomputable section

open scoped BigOperators

namespace Cert.GraphConv

open Cert.ReferenceIdeal Cert.ReferenceIdeal.Gen Idealize.ShloMosaic Idealize.ShloMosaic.ValueIdx

/-- The dense layer at the entry (P, q). -/
theorem linear_apply (X : Feat Ideal) (W : (⟨S128x128, .f32⟩ : BufTy).Contents (Elt Ideal)) (b : Row Ideal) (P : Fin 100000) (q : Fin 128) :
    linear (F := Ideal) X W b (ix2 P q) = (∑ k : Fin 128, X (ix2 P k) * W (ix2 k q)) + b (ix1 q) := by
  have product : Host.dotGeneral (F := Ideal) (φ₁ := .f32) (φ₂ := .f32) dot_S100000x128_S128x128_S100000x128_1_0_0_1_n_n none X W (ix2 P q)
        = ∑ c : Fin 128, X (ix2 P c) * W (ix2 c q) :=
    Cert.LibRowBlock.dotGeneral_apply _ rfl none X W P q
  unfold linear rows
  simp only [addf_apply, product, Cert.LibRowBlock.rows_host_apply]

end Cert.GraphConv

end
-- ==== Proof.LinRegion.lean ====
/-
  The first region's result array: the dense layer of the arrays it is entered with.

  The region walks the 100000 feature rows in 10 blocks of 10000; at point t it reads rows 10000·t … 10000·t + 9999
  of the features and the whole weights and bias, and writes back the same rows of the result. Each written entry is
  the sum over the 128 contracted columns of feature times weight, plus the bias of its column — the entry of the
  whole product at the entry's own row —, so the block written at point t is block t of the whole-array function, and
  the 10 blocks cover the array.
-/
import proofs.«179502_j39462159515868_2_alg».proof.Proof.Gen.KernelIdeal.Frame
import proofs.«179502_j39462159515868_2_alg».proof.Proof.LinKernel
import proofs.«179502_j39462159515868_2_alg».proof.Proof.LinHost
import Idealize.ShloMosaic.Lib.Pipeline.Value
import Idealize.ShloMosaic.Lib.ValueIdx

set_option maxRecDepth 16384

noncomputable section

open scoped BigOperators

namespace Cert.KernelIdeal.LinearRegion

open Cert.KernelIdeal Cert.KernelIdeal.Gen
open Idealize.ShloMosaic Idealize.ShloMosaic.TcCoe Idealize.SL.Sem Idealize.ShloMosaic.ValueIdx
open Idealize.ShloMosaic.Pipeline (Dat)
open Cert.GraphConv (linear linear_apply)

variable (V : (c : Dev nD) → (b : Ref sig .tc) → Buf (Elt Ideal) ((c : Thread nD τ).loc b))

theorem zero2 : (![0, 0] : Fin 2 → Nat) = fun _ => 0 := funext fun a => by fin_cases a <;> rfl
theorem zero1 : (![0] : Fin 1 → Nat) = fun _ => 0 := funext fun a => by fin_cases a <;> rfl

/-- The block indices over the grid: the features' and the result's block at point t is the t-th block of rows; the
    weights and the bias are read whole at every point. -/
theorem block_index : ∀ t : Fin cfg0.N, win0_0.index t (0 : Fin 2) = t.val ∧ win0_0.index t (1 : Fin 2) = 0
    ∧ win0_1.index t (0 : Fin 2) = 0 ∧ win0_1.index t (1 : Fin 2) = 0 ∧ win0_2.index t (0 : Fin 1) = 0
    ∧ win0_3.index t (0 : Fin 2) = t.val ∧ win0_3.index t (1 : Fin 2) = 0 :=
  (by decide +kernel : ∀ t : Fin grid0.N, _)

/-- The whole-array function the result array ends at. -/
abbrev dense (c : Dev nD) : Buf (Elt Ideal) ((c : Thread nD τ).loc main_v0) :=
  linear (F := Ideal) (V c main_arg1) (V c main_arg2) (V c main_arg3)

/-- Row p of the features' block at point t is row 10000·t + p of the array. -/
theorem features_block (c : Dev nD) (t : Fin cfg0.N) (p : Fin 10000) (k : Fin 128) (h : 10000 * t.val + p.val < 100000) :
    (iblk0 V c 0 t : Vec Ideal S10000x128 .f32) (ix2 p k) = (V c main_arg1 : S100000x128.Idx → EReal) (ix2 ⟨10000 * t.val + p.val, h⟩ k) := by
  obtain ⟨e0, e1, -⟩ := block_index t
  unfold iblk0
  rw [View.read_apply]
  show V c main_arg1 _ = V c main_arg1 _
  refine congrArg _ (funext fun a => Fin.ext ?_)
  match a with
  | ⟨0, _⟩ => show win0_0.index t 0 * 10000 + 1 * p.val = 10000 * t.val + p.val; rw [e0]; omega
  | ⟨1, _⟩ => show win0_0.index t 1 * 128 + 1 * k.val = k.val; rw [e1]; omega

/-- The weights' block at any point is the whole matrix. -/
theorem weights_block (c : Dev nD) (t : Fin cfg0.N) (k q : Fin 128) :
    (iblk0 V c 1 t : Vec Ideal S128x128 .f32) (ix2 k q) = (V c main_arg2 : S128x128.Idx → EReal) (ix2 k q) := by
  obtain ⟨-, -, e2, e3, -⟩ := block_index t
  unfold iblk0
  rw [View.read_apply]
  show V c main_arg2 _ = V c main_arg2 _
  refine congrArg _ (funext fun a => Fin.ext ?_)
  match a with
  | ⟨0, _⟩ => show win0_1.index t 0 * 128 + 1 * k.val = k.val; rw [e2]; omega
  | ⟨1, _⟩ => show win0_1.index t 1 * 128 + 1 * q.val = q.val; rw [e3]; omega

/-- The bias's block at any point is the whole row. -/
theorem bias_block (c : Dev nD) (t : Fin cfg0.N) (q : Fin 128) :
    (iblk0 V c 2 t : Vec Ideal S128 .f32) (ix1 q) = (V c main_arg3 : S128.Idx → EReal) (ix1 q) := by
  obtain ⟨-, -, -, -, e4, -⟩ := block_index t
  unfold iblk0
  rw [View.read_apply]
  show V c main_arg3 _ = V c main_arg3 _
  refine congrArg _ (funext fun a => Fin.ext ?_)
  match a with
  | ⟨0, _⟩ => show win0_2.index t 0 * 128 + 1 * q.val = q.val; rw [e4]; omega

/-- Entry (p, q) of the result's block at point t sits at (10000·t + p, q) of the array. -/
theorem result_block (t : Fin cfg0.N) (p : Fin 10000) (q : Fin 128) (h : 10000 * t.val + p.val < 100000) :
    ((cfg0.win 3).blk t).view.emb (ix2 p q) = (ix2 ⟨10000 * t.val + p.val, h⟩ q : S100000x128.Idx) := by
  obtain ⟨-, -, -, -, -, e5, e6⟩ := block_index t
  refine funext fun a => Fin.ext ?_
  match a with
  | ⟨0, _⟩ => show win0_3.index t 0 * 10000 + 1 * p.val = 10000 * t.val + p.val; rw [e5]; omega
  | ⟨1, _⟩ => show win0_3.index t 1 * 128 + 1 * q.val = q.val; rw [e6]; omega

/-- What point t writes back is block t of the dense layer's array. -/
theorem flushed_eq (c : Dev nD) (t : Fin cfg0.N) :
    (dat0 V c).flushed 3 t = ((cfg0.win 3).blk t).view.read (Elt Ideal) (dense V c) := by
  show (cfg0.win 3).cut (grid0.coords t) ((dat0 V c).after 3 t) = _
  rw [after0_3]
  unfold out0_3
  rw [View.canon_unit_zero zero2]
  simp only [View.ld_unit_zero (S := S10000x128) zero2, View.ld_unit_zero (S := S128x128) zero2, View.ld_unit_zero (S := S128) zero1]
  funext j
  obtain ⟨p, q, rfl⟩ : ∃ (p : Fin 10000) (q : Fin 128), j = ix2 p q := ⟨j 0, j 1, eq_ix2 j⟩
  have ht : t.val < 10 := by have := t.isLt; have hN : cfg0.N = 10 := N_0; omega
  have hP : 10000 * t.val + p.val < 100000 := by have := p.isLt; omega
  rw [View.read_apply, result_block t p q hP]
  refine (Cert.KernelIdeal.LinearBody.payload_apply (iblk0 V c 0 t) (iblk0 V c 1 t) (iblk0 V c 2 t) p q).trans ?_
  refine Eq.trans ?_ (linear_apply (V c main_arg1) (V c main_arg2) (V c main_arg3) ⟨10000 * t.val + p.val, hP⟩ q).symm
  rw [bias_block V c t q]
  refine congrArg (· + _) (Finset.sum_congr rfl fun k _ => ?_)
  rw [features_block V c t p k hP, weights_block V c t k q]

/-- An index of the array is in point t's block iff each coordinate is in the block's range on its axis. -/
theorem mem_block (t : Fin cfg0.N) (i : S100000x128.Idx) :
    i ∈ ((cfg0.win 3).blk t).view.set ↔ ∀ a : Fin 2, win0_3.index t a * S10000x128.size a ≤ (i a).val ∧ (i a).val < win0_3.index t a * S10000x128.size a + S10000x128.size a := by
  show i ∈ ((View.whole main_v0).slice (win0_3.rect t)).set ↔ _
  rw [View.set_slice_whole, Rect.mem_set_unit]
  exact Iff.rfl

/-- Every row lies in the block of the point numbered by the row's quotient by 10000. -/
theorem covered (i : S100000x128.Idx) : ∃ t : Fin cfg0.N, (cfg0.win 3).flush t = true ∧ i ∈ ((cfg0.win 3).blk t).view.set := by
  have hi0 : (i 0).val < 100000 := (i 0).isLt
  have hi1 : (i 1).val < 128 := (i 1).isLt
  have hN : cfg0.N = 10 := N_0
  obtain ⟨t, ht⟩ : ∃ t : Fin cfg0.N, t.val = (i 0).val / 10000 := ⟨⟨(i 0).val / 10000, by rw [hN]; omega⟩, rfl⟩
  obtain ⟨-, -, -, -, -, e5, e6⟩ := block_index t
  refine ⟨t, flush0_3 t, ?_⟩
  rw [mem_block]
  intro a
  match a with
  | ⟨0, _⟩ => show win0_3.index t 0 * 10000 ≤ (i 0).val ∧ (i 0).val < win0_3.index t 0 * 10000 + 10000; rw [e5]; omega
  | ⟨1, _⟩ => show win0_3.index t 1 * 128 ≤ (i 1).val ∧ (i 1).val < win0_3.index t 1 * 128 + 128; rw [e6]; omega

/-- The result array after the region: the dense layer's array. -/
theorem final (c : Dev nD) : (dat0 V c).arrAt 3 cfg0.N = dense V c :=
  (dat0 V c).arrAt_eq_of_cover 3 (dense V c) (fun t _ => flushed_eq V c t) covered

end Cert.KernelIdeal.LinearRegion

end
-- ==== Proof.LnSpec.lean ====
/-
  One entry of the rectified layer normalisation of a row, on the extended reals.

  For a row r of 128 values, a gain row g and an offset row b: z k = max (r k) 0; μ is the mean of z over the 128
  entries; v the mean of (z k - μ)²; the entry at column q is (z q - μ) · (v + ε)^(-1/2) · g q + b q, with ε the
  single-precision value nearest 10⁻⁵ and the means taken by dividing by the single-precision 128.
-/
import Idealize.ShloMosaic.PureOps.Ideal
import Idealize.ShloMosaic.Lib.ValueIdx

noncomputable section

open scoped BigOperators

namespace Cert.GraphConv

open Idealize.ShloMosaic

/-- A row's entry clipped below at zero. -/
def relu (r : Fin 128 → EReal) (k : Fin 128) : EReal := max (r k) (Ideal.ofBits .f32 0x00000000#32)

/-- The mean of a row's 128 values. -/
def mean128 (z : Fin 128 → EReal) : EReal := Ideal.div (∑ k : Fin 128, z k) (Ideal.ofBits .f32 0x43000000#32)

/-- The entry at column `q` of the rectified layer normalisation of the row `r` with gain `g` and offset `b`. -/
def lnEntry (r g b : Fin 128 → EReal) (q : Fin 128) : EReal :=
  (relu r q - mean128 (relu r))
      * Ideal.rsqrt (mean128 (fun k => (relu r k - mean128 (relu r)) * (relu r k - mean128 (relu r))) + Ideal.ofBits .f32 0x3727C5AC#32)
      * g q
    + b q

end Cert.GraphConv

end
-- ==== Proof.LibColumns.lean ====
/-
  Two layout facts about a column of values, one per row.
-/
import Idealize.ShloMosaic.Lib.Pipeline.Value
import Idealize.ShloMosaic.Lib.ValueIdx
import Idealize.ShloMosaic.Lib.ValueLayout

set_option maxRecDepth 16384

noncomputable section

namespace Cert.GcnValue

open Idealize.ShloMosaic Idealize.ShloMosaic.ValueIdx

variable {α : Type}

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a]` array cast to the column `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

end Cert.GcnValue

end
-- ==== Proof.LibRowOps.lean ====
/-
  Columns and row sums of a matrix read at an entry, in the kernel's spelling and in the host's, at the ideal values.

  A kernel normalising the rows of a block takes each row's sum with a lane reduction, keeps it as a column
  [a, 1] and repeats the column along the row; the host reduces along axis 1 into a vector [a], broadcasts it to the
  column and the column to the matrix. Read at an entry (p, q) all of these are the row p's value: the sum over k of
  the entries (p, k), or the column's entry of row p.
-/
import Idealize.ShloMosaic.Lib.ValueLayout
import Idealize.ShloMosaic.Lib.Pipeline.Value
import Idealize.ShloMosaic.PureOps.Ideal.Laws

noncomputable section

open scoped BigOperators

namespace Cert.LibRowOps

open Idealize.ShloMosaic Idealize.ShloMosaic.ValueIdx

section Columns
variable {α : Type} {a b : Nat}

/-- The host's column of a vector: [a] broadcast to [a, 1] reads at (p, u) the vector at p. -/
theorem col_host_apply (x : (⟨1, ![a]⟩ : Shape).Idx → α)
    (h : (⟨1, ![a]⟩ : Shape).BroadcastsInDim ⟨2, ![a, 1]⟩ (![0] : Fin 1 → Fin 2)) (p : Fin a) (u : Fin 1) :
    broadcastInDim ⟨2, ![a, 1]⟩ (![0] : Fin 1 → Fin 2) h x (ix2 p u) = x (ix1 p) :=
  broadcastInDim_apply (![0] : Fin 1 → Fin 2) h x (ix2 p u) (ix1 p) (fun ax => by
    match ax with
    | ⟨0, _⟩ =>
      show p.val = if a = 1 then 0 else p.val
      split
      · have := p.isLt; omega
      · rfl)

/-- The host's repetition of a column along the rows: [a, 1] broadcast to [a, b] reads at (p, q) the column at p. -/
theorem cols_host_apply (v : (⟨2, ![a, 1]⟩ : Shape).Idx → α)
    (h : (⟨2, ![a, 1]⟩ : Shape).BroadcastsInDim ⟨2, ![a, b]⟩ (![0, 1] : Fin 2 → Fin 2)) (p : Fin a) (q : Fin b) :
    broadcastInDim ⟨2, ![a, b]⟩ (![0, 1] : Fin 2 → Fin 2) h v (ix2 p q) = v (ix2 p (0 : Fin 1)) :=
  broadcastInDim_apply (![0, 1] : Fin 2 → Fin 2) h v (ix2 p q) (ix2 p (0 : Fin 1)) (fun ax => by
    match ax with
    | ⟨0, _⟩ =>
      show p.val = if a = 1 then 0 else p.val
      split
      · have := p.isLt; omega
      · rfl
    | ⟨1, _⟩ => rfl)

/-- A scalar broadcast to any shape reads the scalar everywhere. -/
theorem scalar_host_apply {s : Shape} (x : (⟨0, ![]⟩ : Shape).Idx → α)
    (h : (⟨0, ![]⟩ : Shape).BroadcastsInDim s (![] : Fin 0 → Fin s.rank)) (i : s.Idx) :
    broadcastInDim s (![] : Fin 0 → Fin s.rank) h x i = x ix0 :=
  broadcastInDim_apply (![] : Fin 0 → Fin s.rank) h x i ix0 (fun ax => ax.elim0)

end Columns

section Sums
variable {a b : Nat}

/-- The reduced index p with the coordinate k of axis 1 put back is (p, k). -/
theorem lift_axis1 (h : (⟨2, ![a, b]⟩ : Shape).Reduces [1] (⟨1, ![a]⟩ : Shape)) (p : Fin a)
    (k : Fin ((⟨2, ![a, b]⟩ : Shape).size 1)) : h.lift (ix1 p) k = ix2 p (⟨k.val, k.isLt⟩ : Fin b) := by
  funext c; apply Fin.ext
  fin_cases c <;> rfl

/-- The kernel's lane sum of a block's rows, from the zero word, read at row p: the sum of the row. -/
theorem rowSum_kernel_apply (X : FVec Ideal ⟨2, ![a, b]⟩ .f32) (h : (⟨2, ![a, b]⟩ : Shape).Reduces [1] (⟨1, ![a]⟩ : Shape))
    (hφ : FKind.Formats .f32) (hacc : (0x00000000#32 : BitVec 32) = FKind.add.neutral .f32 hφ) (p : Fin a) :
    multiReduction .add [1] ⟨1, ![a]⟩ X 0x00000000#32 h hφ hacc (ix1 p) = ∑ k : Fin b, X (ix2 p k) := by
  refine (Ideal.multiReduction_add_single X 0x00000000#32 h hφ hacc (ix1 p)).trans ?_
  exact Finset.sum_congr rfl fun k _ => by rw [lift_axis1 h p k]; rfl

/-- The host's sum along axis 1 from the zero word, read at row p: the sum of the row. -/
theorem rowSum_host_apply (X : FVec Ideal ⟨2, ![a, b]⟩ .f32) (h' : (⟨2, ![a, b]⟩ : Shape).ReducesTo [1] (⟨1, ![a]⟩ : Shape))
    (h : (⟨2, ![a, b]⟩ : Shape).Reduces [1] (⟨1, ![a]⟩ : Shape)) (hu : 0 < (⟨0, ![]⟩ : Shape).numel) (p : Fin a) :
    Host.reduceAdd X (constant (F := Ideal) (⟨0, ![]⟩ : Shape) .f32 0x00000000#32) h' hu (ix1 p) = ∑ k : Fin b, X (ix2 p k) := by
  show Ideal.hostReduceAdd h' X _ (ix1 p) = _
  rw [Ideal.hostReduceAdd_single h' h]
  show Ideal.ofBits .f32 0x00000000#32 + _ = _
  rw [Ideal.ofBits_zero_f32, zero_add]
  exact Finset.sum_congr rfl fun k _ => by rw [lift_axis1 h p k]; rfl

end Sums

end Cert.LibRowOps

end
-- ==== Proof.LnKernel.lean ====
/-
  The second region's body computes, at each entry of its block, the rectified layer normalisation of the entry's row.
-/
import proofs.«179502_j39462159515868_2_alg».proof.Proof.Gen.KernelIdeal.Skeleton
import proofs.«179502_j39462159515868_2_alg».proof.Proof.LnSpec
import proofs.«179502_j39462159515868_2_alg».proof.Proof.LibColumns
import proofs.«179502_j39462159515868_2_alg».proof.Proof.LibRowBlock
import proofs.«179502_j39462159515868_2_alg».proof.Proof.LibRowOps
import Idealize.ShloMosaic.Lib.ValueLayout
import Idealize.ShloMosaic.Lib.Pipeline.Value
import Idealize.ShloMosaic.PureOps.Ideal.Laws

set_option maxRecDepth 16384

noncomputable section

open scoped BigOperators

namespace Cert.KernelIdeal.LnBody

open Cert.KernelIdeal Cert.KernelIdeal.Gen Idealize.ShloMosaic Idealize.ShloMosaic.ValueIdx
open Cert.GraphConv (relu mean128 lnEntry)

set_option backward.isDefEq.respectTransparency.types false in
/-- The payload of the body's one store, read at the entry (p, q) of the block: the normalisation of row p at column q. -/
theorem payload_apply (x0 : Vec Ideal S4000x128 .f32) (x1 x2 : Vec Ideal S128 .f32) (p : Fin 4000) (q : Fin 128) :
    k1_pay1 (F := Ideal) x0 x1 x2 (ix2 p q)
      = lnEntry (fun k => x0 (ix2 p k)) (fun k => x1 (ix1 k)) (fun k => x2 (ix1 k)) q := by
  have rsqrt_at : ∀ (a : FVec Ideal S4000x1 .f32) (i : S4000x1.Idx), rsqrt a i = Ideal.rsqrt (a i) := fun _ _ => rfl
  have rowSum : ∀ (X : FVec Ideal S4000x128 .f32) h hφ hacc,
      multiReduction .add [1] S4000 X 0x00000000#32 h hφ hacc (ix1 p) = ∑ k : Fin 128, X (ix2 p k) :=
    fun X h hφ hacc => Cert.LibRowOps.rowSum_kernel_apply X h hφ hacc p
  unfold k1_pay1
  dsimp only
  simp only [rowSum, addf_apply, mulf_apply, subf_apply, divf_apply, maximumf_apply, broadcast_apply, shapeCast_self, rsqrt_at,
    Cert.LibRowBlock.rows_kernel_apply0, Cert.GcnValue.broadcastTo_a1_ab_apply, Cert.GcnValue.shapeCast_a_a1_apply,
    Cert.LibRowOps.rowSum_kernel_apply]
  rfl

end Cert.KernelIdeal.LnBody

end
-- ==== Proof.LnHost.lean ====
/-
  The reference's rectified layer normalisation, read at an entry: the normalisation of the entry's row.
-/
import proofs.«179502_j39462159515868_2_alg».proof.Proof.HostFns
import proofs.«179502_j39462159515868_2_alg».proof.Proof.LnSpec
import proofs.«179502_j39462159515868_2_alg».proof.Proof.LibRowBlock
import proofs.«179502_j39462159515868_2_alg».proof.Proof.LibRowOps
import Idealize.ShloMosaic.Lib.ValueLayout
import Idealize.ShloMosaic.Lib.Pipeline.Value
import Idealize.ShloMosaic.PureOps.Ideal.Laws

set_option maxRecDepth 16384

noncomputable section

open scoped BigOperators

namespace Cert.GraphConv

open Cert.ReferenceIdeal Cert.ReferenceIdeal.Gen Idealize.ShloMosaic Idealize.ShloMosaic.ValueIdx

/-- A scalar constant broadcast to any shape reads the constant's value everywhere. -/
theorem splat_apply {s : Shape} (h : S_.BroadcastsInDim s (![] : Fin 0 → Fin s.rank)) (w : BitVec 32) (i : s.Idx) :
    broadcastInDim s ![] h (constant (F := Ideal) S_ .f32 w) i = Ideal.ofBits .f32 w :=
  (Cert.LibRowOps.scalar_host_apply (constant (F := Ideal) S_ .f32 w) h i).trans rfl

/-- The normalised features at the entry (P, q): the normalisation of row P at column q. -/
theorem layerNorm_apply (H : Feat Ideal) (g b : Row Ideal) (P : Fin 100000) (q : Fin 128) :
    layerNorm (F := Ideal) H g b (ix2 P q)
      = lnEntry (fun k => H (ix2 P k)) (fun k => g (ix1 k)) (fun k => b (ix1 k)) q := by
  have rsqrt_at : ∀ (a : FVec Ideal S100000x1 .f32) (i : S100000x1.Idx), Host.rsqrt a i = Ideal.rsqrt (a i) := fun _ _ => rfl
  have div_at : ∀ (a c : FVec Ideal S100000x1 .f32) (i : S100000x1.Idx), Host.divf a c i = Ideal.div (a i) (c i) := fun _ _ _ => rfl
  have rowSum : ∀ (X : FVec Ideal S100000x128 .f32) h' hu,
      Host.reduceAdd X (constant (F := Ideal) S_ .f32 0x00000000#32) h' hu (ix1 P) = ∑ k : Fin 128, X (ix2 P k) :=
    fun X h' hu => Cert.LibRowOps.rowSum_host_apply X h' (by decide) hu P
  unfold layerNorm centre cols rowMean rectify rows
  simp only [rowSum, addf_apply, mulf_apply, subf_apply, maximumf_apply, rsqrt_at, div_at, constant_apply,
    Cert.LibRowBlock.rows_host_apply, Cert.LibRowOps.cols_host_apply, Cert.LibRowOps.col_host_apply, splat_apply]
  rfl

end Cert.GraphConv

end
-- ==== Proof.LnRegion.lean ====
/-
  The second region's result array: the rectified layer normalisation of the array it is entered with.

  The region walks the 100000 rows in 25 blocks of 4000; at point t it reads rows 4000·t … 4000·t + 3999 of the
  features and the whole gain and offset rows, and writes back the same rows of the result. Each written entry is the
  normalisation of its own row (the body's payload at an entry depends on that row only), so the block written at
  point t is block t of the whole-array function, and the 25 blocks cover the array.
-/
import proofs.«179502_j39462159515868_2_alg».proof.Proof.Gen.KernelIdeal.Frame
import proofs.«179502_j39462159515868_2_alg».proof.Proof.LnKernel
import proofs.«179502_j39462159515868_2_alg».proof.Proof.LnHost
import Idealize.ShloMosaic.Lib.Pipeline.Value
import Idealize.ShloMosaic.Lib.ValueIdx

set_option maxRecDepth 16384

noncomputable section

namespace Cert.KernelIdeal.LnRegion

open Cert.KernelIdeal Cert.KernelIdeal.Gen
open Idealize.ShloMosaic Idealize.ShloMosaic.TcCoe Idealize.SL.Sem Idealize.ShloMosaic.ValueIdx
open Idealize.ShloMosaic.Pipeline (Dat)
open Cert.GraphConv (layerNorm lnEntry layerNorm_apply)

variable (V : (c : Dev nD) → (b : Ref sig .tc) → Buf (Elt Ideal) ((c : Thread nD τ).loc b))

theorem zero2 : (![0, 0] : Fin 2 → Nat) = fun _ => 0 := funext fun a => by fin_cases a <;> rfl
theorem zero1 : (![0] : Fin 1 → Nat) = fun _ => 0 := funext fun a => by fin_cases a <;> rfl

/-- The block indices over the grid: the features' and the result's block at point t is the t-th block of rows; the
    gain and offset rows are read whole at every point. -/
theorem block_index : ∀ t : Fin cfg1.N, win1_0.index t (0 : Fin 2) = t.val ∧ win1_0.index t (1 : Fin 2) = 0
    ∧ win1_1.index t (0 : Fin 1) = 0 ∧ win1_2.index t (0 : Fin 1) = 0
    ∧ win1_3.index t (0 : Fin 2) = t.val ∧ win1_3.index t (1 : Fin 2) = 0 :=
  (by decide +kernel : ∀ t : Fin grid1.N, _)

/-- The whole-array function the result array ends at. -/
abbrev normalised (c : Dev nD) : Buf (Elt Ideal) ((c : Thread nD τ).loc main_v15) :=
  layerNorm (F := Ideal) (V c main_v14) (V c main_arg7) (V c main_arg8)

/-- Row p of the features' block at point t is row 4000·t + p of the array. -/
theorem features_block (c : Dev nD) (t : Fin cfg1.N) (p : Fin 4000) (k : Fin 128) (h : 4000 * t.val + p.val < 100000) :
    (iblk1 V c 0 t : Vec Ideal S4000x128 .f32) (ix2 p k) = (V c main_v14 : S100000x128.Idx → EReal) (ix2 ⟨4000 * t.val + p.val, h⟩ k) := by
  obtain ⟨e0, e1, -⟩ := block_index t
  unfold iblk1
  rw [View.read_apply]
  show V c main_v14 _ = V c main_v14 _
  refine congrArg _ (funext fun a => Fin.ext ?_)
  match a with
  | ⟨0, _⟩ => show win1_0.index t 0 * 4000 + 1 * p.val = 4000 * t.val + p.val; rw [e0]; omega
  | ⟨1, _⟩ => show win1_0.index t 1 * 128 + 1 * k.val = k.val; rw [e1]; omega

/-- The gain row's block at any point is the whole row. -/
theorem gain_block (c : Dev nD) (t : Fin cfg1.N) (k : Fin 128) :
    (iblk1 V c 1 t : Vec Ideal S128 .f32) (ix1 k) = (V c main_arg7 : S128.Idx → EReal) (ix1 k) := by
  obtain ⟨-, -, e2, -⟩ := block_index t
  unfold iblk1
  rw [View.read_apply]
  show V c main_arg7 _ = V c main_arg7 _
  refine congrArg _ (funext fun a => Fin.ext ?_)
  match a with
  | ⟨0, _⟩ => show win1_1.index t 0 * 128 + 1 * k.val = k.val; rw [e2]; omega

/-- The offset row's block at any point is the whole row. -/
theorem offset_block (c : Dev nD) (t : Fin cfg1.N) (k : Fin 128) :
    (iblk1 V c 2 t : Vec Ideal S128 .f32) (ix1 k) = (V c main_arg8 : S128.Idx → EReal) (ix1 k) := by
  obtain ⟨-, -, -, e3, -⟩ := block_index t
  unfold iblk1
  rw [View.read_apply]
  show V c main_arg8 _ = V c main_arg8 _
  refine congrArg _ (funext fun a => Fin.ext ?_)
  match a with
  | ⟨0, _⟩ => show win1_2.index t 0 * 128 + 1 * k.val = k.val; rw [e3]; omega

/-- Entry (p, q) of the result's block at point t sits at (4000·t + p, q) of the array. -/
theorem result_block (t : Fin cfg1.N) (p : Fin 4000) (q : Fin 128) (h : 4000 * t.val + p.val < 100000) :
    ((cfg1.win 3).blk t).view.emb (ix2 p q) = (ix2 ⟨4000 * t.val + p.val, h⟩ q : S100000x128.Idx) := by
  obtain ⟨-, -, -, -, e4, e5⟩ := block_index t
  refine funext fun a => Fin.ext ?_
  match a with
  | ⟨0, _⟩ => show win1_3.index t 0 * 4000 + 1 * p.val = 4000 * t.val + p.val; rw [e4]; omega
  | ⟨1, _⟩ => show win1_3.index t 1 * 128 + 1 * q.val = q.val; rw [e5]; omega

/-- What point t writes back is block t of the normalised array. -/
theorem flushed_eq (c : Dev nD) (t : Fin cfg1.N) :
    (dat1 V c).flushed 3 t = ((cfg1.win 3).blk t).view.read (Elt Ideal) (normalised V c) := by
  show (cfg1.win 3).cut (grid1.coords t) ((dat1 V c).after 3 t) = _
  rw [after1_3]
  unfold out1_3
  rw [View.canon_unit_zero zero2]
  simp only [View.ld_unit_zero (S := S4000x128) zero2, View.ld_unit_zero (S := S128) zero1]
  funext j
  obtain ⟨p, q, rfl⟩ : ∃ (p : Fin 4000) (q : Fin 128), j = ix2 p q := ⟨j 0, j 1, eq_ix2 j⟩
  have ht : t.val < 25 := by have := t.isLt; have hN : cfg1.N = 25 := N_1; omega
  have hP : 4000 * t.val + p.val < 100000 := by have := p.isLt; omega
  rw [View.read_apply, result_block t p q hP]
  refine (Cert.KernelIdeal.LnBody.payload_apply (iblk1 V c 0 t) (iblk1 V c 1 t) (iblk1 V c 2 t) p q).trans ?_
  refine Eq.trans ?_ (layerNorm_apply (V c main_v14) (V c main_arg7) (V c main_arg8) ⟨4000 * t.val + p.val, hP⟩ q).symm
  rw [show (fun k => (iblk1 V c 0 t : Vec Ideal S4000x128 .f32) (ix2 p k)) = fun k => (V c main_v14 : S100000x128.Idx → EReal) (ix2 ⟨4000 * t.val + p.val, hP⟩ k)
        from funext fun k => features_block V c t p k hP,
    show (fun k => (iblk1 V c 1 t : Vec Ideal S128 .f32) (ix1 k)) = fun k => (V c main_arg7 : S128.Idx → EReal) (ix1 k)
        from funext fun k => gain_block V c t k,
    show (fun k => (iblk1 V c 2 t : Vec Ideal S128 .f32) (ix1 k)) = fun k => (V c main_arg8 : S128.Idx → EReal) (ix1 k)
        from funext fun k => offset_block V c t k]

/-- An index of the array is in point t's block iff each coordinate is in the block's range on its axis. -/
theorem mem_block (t : Fin cfg1.N) (i : S100000x128.Idx) :
    i ∈ ((cfg1.win 3).blk t).view.set ↔ ∀ a : Fin 2, win1_3.index t a * S4000x128.size a ≤ (i a).val ∧ (i a).val < win1_3.index t a * S4000x128.size a + S4000x128.size a := by
  show i ∈ ((View.whole main_v15).slice (win1_3.rect t)).set ↔ _
  rw [View.set_slice_whole, Rect.mem_set_unit]
  exact Iff.rfl

/-- Every row lies in the block of the point numbered by the row's quotient by 4000. -/
theorem covered (i : S100000x128.Idx) : ∃ t : Fin cfg1.N, (cfg1.win 3).flush t = true ∧ i ∈ ((cfg1.win 3).blk t).view.set := by
  have hi0 : (i 0).val < 100000 := (i 0).isLt
  have hi1 : (i 1).val < 128 := (i 1).isLt
  have hN : cfg1.N = 25 := N_1
  obtain ⟨t, ht⟩ : ∃ t : Fin cfg1.N, t.val = (i 0).val / 4000 := ⟨⟨(i 0).val / 4000, by rw [hN]; omega⟩, rfl⟩
  obtain ⟨-, -, -, -, e4, e5⟩ := block_index t
  refine ⟨t, flush1_3 t, ?_⟩
  rw [mem_block]
  intro a
  match a with
  | ⟨0, _⟩ => show win1_3.index t 0 * 4000 ≤ (i 0).val ∧ (i 0).val < win1_3.index t 0 * 4000 + 4000; rw [e4]; omega
  | ⟨1, _⟩ => show win1_3.index t 1 * 128 ≤ (i 1).val ∧ (i 1).val < win1_3.index t 1 * 128 + 128; rw [e5]; omega

/-- The result array after the region: the normalised array. -/
theorem final (c : Dev nD) : (dat1 V c).arrAt 3 cfg1.N = normalised V c :=
  (dat1 V c).arrAt_eq_of_cover 3 (normalised V c) (fun t _ => flushed_eq V c t) covered

end Cert.KernelIdeal.LnRegion

end
-- ==== Proof.KernelValue.lean ====
/-
  The idealized kernel's result is the layer of its argument arrays.

  Through the fold of the program's buffer contents: the first region leaves the dense layer of the features in its
  result array; the host stretch between the regions aggregates that array over the edges; the second region leaves the
  rectified layer normalisation of the aggregate; the stretches after it look the queries up in the normalised array.
  Every argument array is read where it is still as launched.
-/
import proofs.«179502_j39462159515868_2_alg».proof.Proof.Gen.KernelIdeal.Frame
import proofs.«179502_j39462159515868_2_alg».proof.Proof.KernelHost
import proofs.«179502_j39462159515868_2_alg».proof.Proof.LinRegion
import proofs.«179502_j39462159515868_2_alg».proof.Proof.LnRegion

set_option maxRecDepth 16384

noncomputable section

namespace Cert.KernelIdeal.LayerValue

open Cert.KernelIdeal Cert.KernelIdeal.Gen
open Idealize.ShloMosaic Idealize.ShloMosaic.TcCoe Idealize.SL.Sem
open Cert.GraphConv (linear aggregate layerNorm lookup layer)

variable (m : (ℓ : Loc nD τ sig) → Buf (Elt Ideal) ℓ) (ρ : Dev nD → PrngReg)

/-- After the first region its result array holds the dense layer of the launched features, weights and bias. -/
theorem after_first (c : Dev nD) :
    W1 m ρ c (Proc.devRef .tc main_v0)
      = linear (F := Ideal) (m ((c : Thread nD τ).loc main_arg1)) (m ((c : Thread nD τ).loc main_arg2)) (m ((c : Thread nD τ).loc main_arg3)) :=
  (W1_arr m ρ c 3).trans (Cert.KernelIdeal.LinearRegion.final (V0 m ρ) c)

/-- At the second region's entry the aggregate of that array over the launched edges is in place. -/
theorem at_second (c : Dev nD) :
    W2 m ρ c (Proc.devRef .tc main_v14)
      = aggregate (F := Ideal) (linear (F := Ideal) (m ((c : Thread nD τ).loc main_arg1)) (m ((c : Thread nD τ).loc main_arg2)) (m ((c : Thread nD τ).loc main_arg3)))
          (m ((c : Thread nD τ).loc main_arg4)) (m ((c : Thread nD τ).loc main_arg5)) (m ((c : Thread nD τ).loc main_arg6)) := by
  refine (Cert.KernelIdeal.HostValue.after_between (W1 m ρ c)).trans ?_
  rw [after_first m ρ c, W1_of_ne m ρ c main_arg4 (by decide), W1_of_ne m ρ c main_arg5 (by decide), W1_of_ne m ρ c main_arg6 (by decide)]

/-- The gain row, the offset row and the queries are as launched at the second region's entry. -/
theorem gain_at_second (c : Dev nD) : W2 m ρ c (Proc.devRef .tc main_arg7) = m ((c : Thread nD τ).loc main_arg7) :=
  (Cert.KernelIdeal.HostValue.after_between_gain (W1 m ρ c)).trans (W1_of_ne m ρ c main_arg7 (by decide))
theorem offset_at_second (c : Dev nD) : W2 m ρ c (Proc.devRef .tc main_arg8) = m ((c : Thread nD τ).loc main_arg8) :=
  (Cert.KernelIdeal.HostValue.after_between_offset (W1 m ρ c)).trans (W1_of_ne m ρ c main_arg8 (by decide))
theorem queries_at_second (c : Dev nD) : W2 m ρ c (Proc.devRef .tc main_arg0) = m ((c : Thread nD τ).loc main_arg0) :=
  (Cert.KernelIdeal.HostValue.after_between_queries (W1 m ρ c)).trans (W1_of_ne m ρ c main_arg0 (by decide))

/-- After the second region its result array holds the normalised aggregate. -/
theorem after_second (c : Dev nD) :
    W3 m ρ c (Proc.devRef .tc main_v15)
      = layerNorm (F := Ideal) (aggregate (F := Ideal) (linear (F := Ideal) (m ((c : Thread nD τ).loc main_arg1)) (m ((c : Thread nD τ).loc main_arg2)) (m ((c : Thread nD τ).loc main_arg3)))
          (m ((c : Thread nD τ).loc main_arg4)) (m ((c : Thread nD τ).loc main_arg5)) (m ((c : Thread nD τ).loc main_arg6)))
          (m ((c : Thread nD τ).loc main_arg7)) (m ((c : Thread nD τ).loc main_arg8)) := by
  refine (W3_arr m ρ c 3).trans ((Cert.KernelIdeal.LnRegion.final (V2 m ρ) c).trans ?_)
  show layerNorm (F := Ideal) (W2 m ρ c (Proc.devRef .tc main_v14)) (W2 m ρ c (Proc.devRef .tc main_arg7)) (W2 m ρ c (Proc.devRef .tc main_arg8)) = _
  rw [at_second m ρ c, gain_at_second m ρ c, offset_at_second m ρ c]

/-- THE RESULT: the last boundary's contents at the result buffer are the layer of the launched argument arrays. -/
theorem result (c : Dev nD) :
    W7 m ρ c (Proc.devRef .tc main_v32)
      = layer (F := Ideal) (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5))
          (m ((c : Thread nD τ).loc main_arg6)) (m ((c : Thread nD τ).loc main_arg7)) (m ((c : Thread nD τ).loc main_arg8)) := by
  refine (Cert.KernelIdeal.HostValue.after_tail (W3 m ρ c)).trans ?_
  rw [after_second m ρ c, W3_of_ne m ρ c main_arg0 (by decide), queries_at_second m ρ c]
  rfl

end Cert.KernelIdeal.LayerValue

end
-- ==== Proof.lean ====
/-
  The certificate of a graph-convolution layer: a dense linear map of 100000 nodes' 128 features, a sparse aggregation
  over 1600000 weighted edges, a rectified layer normalisation of each row, and a masked lookup of 500000 queries.

  The kernel program runs the dense map and the normalisation as two pipelined regions (the dense map on blocks of
  10000 rows, through a matrix unit fed with narrowed operands and storing a narrowed result; the normalisation on blocks
  of 4000 rows) and leaves the aggregation and the lookup to host operations, the same ones the reference uses. On
  extended reals a change of float format is the identity, a product into a zero accumulator is the host's product, and
  a lane sum is the host's row sum; every entry the regions write depends on its own row only, so each region's
  result array is the reference's whole-array function of the region's input arrays, and the two programs compute one
  function of the arguments (`Cert.GraphConv.layer`). No algebraic law beyond that is used, and the precondition is not
  opened.

  The frames of the two kernel programs are the generated ones; the reference's frame is its generated run with the
  result dropped; the idealization rewrote nothing, so there is nothing to preserve.
-/
import proofs.«179502_j39462159515868_2_alg».proof.Defs
import proofs.«179502_j39462159515868_2_alg».proof.Proof.Gen.Kernel
import proofs.«179502_j39462159515868_2_alg».proof.Proof.Gen.Kernel.Frame
import proofs.«179502_j39462159515868_2_alg».proof.Proof.Gen.KernelIdeal
import proofs.«179502_j39462159515868_2_alg».proof.Proof.Gen.KernelIdeal.Frame
import proofs.«179502_j39462159515868_2_alg».proof.Proof.Gen.ReferenceIdeal
import proofs.«179502_j39462159515868_2_alg».proof.Proof.Gen.Pre_finite_inputs
import proofs.«179502_j39462159515868_2_alg».proof.Proof.Gen.ReferenceIdeal.Run
import proofs.«179502_j39462159515868_2_alg».proof.Proof.HostFns
import proofs.«179502_j39462159515868_2_alg».proof.Proof.KernelRun
import proofs.«179502_j39462159515868_2_alg».proof.Proof.KernelValue

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both idealized programs end with the layer of the argument arrays in their result buffers: the kernel program by
    its run read through the fold of its buffer contents, the reference by its run's composed term. -/
theorem algebraic : Cert.algebraic_KernelIdeal_ReferenceIdeal := by
  intro m ρ m' ρ' _ hagree
  refine ⟨fun c => Cert.GraphConv.layer (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4))
      (m ((c.tc : Thread Cert.KernelIdeal.nD Cert.KernelIdeal.τ).loc Cert.KernelIdeal.main_arg5))
      (m ((c.tc : Thread Cert.KernelIdeal.nD Cert.KernelIdeal.τ).loc Cert.KernelIdeal.main_arg6))
      (m ((c.tc : Thread Cert.KernelIdeal.nD Cert.KernelIdeal.τ).loc Cert.KernelIdeal.main_arg7))
      (m ((c.tc : Thread Cert.KernelIdeal.nD Cert.KernelIdeal.τ).loc Cert.KernelIdeal.main_arg8)), ?_, ?_⟩
  · exact (θ_run Cert.KernelIdeal.defs _ _).mono
      (fun _ h c => ⟨(h c).1.trans (Cert.KernelIdeal.LayerValue.result m ρ c), (h c).2⟩)
      (Cert.KernelIdeal.RunNamed.run (F := Ideal) m ρ)
  · refine (θ_run Cert.ReferenceIdeal.defs _ _).mono (fun _ h c => ⟨(h c).1.trans ?_, (h c).2⟩)
      (Cert.ReferenceIdeal.Value.run (F := Ideal) m' ρ')
    obtain ⟨h0, h1, h2, h3, h4, h5, h6, h7, h8⟩ := hagree c
    rw [Cert.GraphConv.reference_result, h0, h1, h2, h3, h4, h5, h6, h7, h8]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
